-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x6 : Shape := ⟨2, ![256, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x6 .f32) (main_arg11 : FVec F S6 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x6 .f32 := Host.absf main_arg10
  let main_cst_16 : FVec F S_ .f32 := constant S_ .f32 0x7F800000#32
  let main_v45 : FVec F S256x6 .f32 := broadcastInDim S256x6 ![] bcast_S_S256x6 main_cst_16
  let main_v46 : IVec S256x6 1 := cmpf .olt main_v44 main_v45
  let main_c_17 : IVec S_ 1 := constantI S_ 1 1#1
  let main_v47 : IVec S_ 1 := (fun x v => Host.reduce IntOp.andi x v reducesTo_S256x6_S_d0_1 h_S_) main_v46 main_c_17
  let main_v48 : IVec S_ 1 := andi main_v43 main_v47
  let main_v49 : FVec F S6 .f32 := Host.absf main_arg11
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x6 .f32) (main_arg11 : FVec F S6 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x6 .f32) (main_arg11 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x6 : Shape := ⟨2, ![256, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x128 : Shape := ⟨2, ![256, 128]⟩
abbrev S1 : Shape := ⟨1, ![1]⟩
abbrev S128 : Shape := ⟨1, ![128]⟩
abbrev S1x128 : Shape := ⟨2, ![1, 128]⟩
abbrev S1x6 : Shape := ⟨2, ![1, 6]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x6, .f32⟩
  | .hbm, ⟨11, _⟩ => ⟨S6, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x256, .f32⟩
  | .hbm, ⟨30, _⟩ => ⟨S1x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S_, .f32⟩
  | .hbm, ⟨46, _⟩ => ⟨S256x128, .f32⟩
  | .hbm, ⟨47, _⟩ => ⟨S_, .i32⟩
  | .hbm, ⟨48, _⟩ => ⟨S1, .i32⟩
  | .hbm, ⟨49, _⟩ => ⟨S256x128, .f32⟩
  | .hbm, ⟨50, _⟩ => ⟨S_, .f32⟩
  | .hbm, ⟨51, _⟩ => ⟨S128, .f32⟩
  | .hbm, ⟨52, _⟩ => ⟨S_, .i32⟩
  | .hbm, ⟨53, _⟩ => ⟨S1, .i32⟩
  | .hbm, ⟨54, _⟩ => ⟨S128, .f32⟩
  | .hbm, ⟨55, _⟩ => ⟨S1x256, .f32⟩
  | .hbm, ⟨56, _⟩ => ⟨S1x256, .f32⟩
  | .hbm, ⟨57, _⟩ => ⟨S1x128, .f32⟩
  | .hbm, ⟨58, _⟩ => ⟨S1x128, .f32⟩
  | .hbm, ⟨59, _⟩ => ⟨S1x6, .f32⟩
  | .hbm, ⟨60, _⟩ => ⟨S6, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_25 : BitVec 32 := 0#32
  let v46 : BitVec 1 := Scalar.cmpi .ne v45 c0_i32_25
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2000x128 : S1x128.Broadcasts S2000x128
  reduces_S2000x128_S128 : S2000x128.Reduces [0] S128
  shapeCasts_S128_S1x128 : S128.ShapeCasts S1x128
  slices_S1x128_S1x6_0_0 : S1x128.Slices ![0, 0] S1x6
  shapeCasts_S1x6_S6 : S1x6.ShapeCasts S6
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x128_S1_S256x6_01_n_1_0_wf : ScatterDims.WF S256x128 S1 S256x6 [0, 1] [] [1] 0
  scatter_S128_S1_S6_0_n_0_0_wf : ScatterDims.WF S128 S1 S6 [0] [] [0] 0
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x128_S1_S256x6_01_n_1_0 : ScatterDims S256x128 S1 S256x6 where
  updateWindowDims := [0, 1]
  insertedWindowDims := []
  scatterDimsToOperandDims := [1]
  indexVectorDim := 0
  wf := scatter_S256x128_S1_S256x6_01_n_1_0_wf
def scatter_S128_S1_S6_0_n_0_0 : ScatterDims S128 S1 S6 where
  updateWindowDims := [0]
  insertedWindowDims := []
  scatterDimsToOperandDims := [0]
  indexVectorDim := 0
  wf := scatter_S128_S1_S6_0_n_0_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x6 : Shape := ⟨2, ![256, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x6 : Shape := ⟨2, ![50000, 6]⟩
abbrev S1x6 : Shape := ⟨2, ![1, 6]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x6, .f32⟩
  | .hbm, ⟨11, _⟩ => ⟨S6, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x6, .f32⟩
  | .hbm, ⟨73, _⟩ => ⟨S1x6, .f32⟩
  | .hbm, ⟨74, _⟩ => ⟨S50000x6, .f32⟩
  | .hbm, ⟨75, _⟩ => ⟨S50000x6, .f32⟩
  | .hbm, ⟨76, _⟩ => ⟨S_, .f32⟩
  | .hbm, ⟨77, _⟩ => ⟨S6, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  reducesTo_S50000x6_S6_d0 : S50000x6.ReducesTo [0] S6
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x6_S50000x6_1_0_0_1_n_n_wf : DotDims.WF S50000x256 S256x6 S50000x6 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x6_S50000x6_1_0_0_1_n_n : DotDims S50000x256 S256x6 S50000x6 where
  lhsContracting := [1]
  rhsContracting := [0]
  lhsNonContracting := [0]
  rhsNonContracting := [1]
  lhsBatch := []
  rhsBatch := []
  wf := dot_S50000x256_S256x6_S50000x6_1_0_0_1_n_n_wf

class Facts : Prop extends Facts₀ where

variable [Facts]
-- ==== Proof.BitsRegion0.lean ====
/-
  Region 0 of the program: one layer's perceptron on a block of 2000 node rows, at each of the 25 grid points.
  The body loads its six input blocks whole (the node rows, the aggregated rows, two weight matrices and two bias rows),
  computes the perceptron, and stores the 2000x256 result block whole. Stated at a parameter `V`: the contents of the
  core's buffers when the region is entered. What is proved: the body's triple on whole staging buffers, the proof
  data of the pipeline (each input window's buffer holds its block of `V`'s array, the output window's the
  perceptron of those blocks), and the body obligation at every grid point.
-/
import proofs.«121622_j79328045957731_1_alg».proof.Proof.Gen.Kernel.Launch
import proofs.«121622_j79328045957731_1_alg».proof.Proof.Gen.Kernel.Skeleton
import proofs.«121622_j79328045957731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole-buffer rectangle -/
abbrev rw_S2000x128 : Rect S2000x128 := Rect.unit (s := S2000x128) ![0, 0] S2000x128.size inb_S2000x128_S2000x128_0_0
abbrev rw_S128x256 : Rect S128x256 := Rect.unit (s := S128x256) ![0, 0] S128x256.size inb_S128x256_S128x256_0_0
abbrev rw_S1x256 : Rect S1x256 := Rect.unit (s := S1x256) ![0, 0] S1x256.size inb_S1x256_S1x256_0_0
abbrev rw_S256x256 : Rect S256x256 := Rect.unit (s := S256x256) ![0, 0] S256x256.size inb_S256x256_S256x256_0_0
abbrev rw_S2000x256 : Rect S2000x256 := Rect.unit (s := S2000x256) ![0, 0] S2000x256.size inb_S2000x256_S2000x256_0_0

/-- The output window's staging buffer after the body, from the input windows' blocks: its one store as a piece. -/
def out0_6 (x0 x1 : Vec F S2000x128 .f32) (x2 : Vec F S128x256 .f32) (x3 : Vec F S1x256 .f32) (x4 : Vec F S256x256 .f32) (x5 : Vec F S1x256 .f32) : Vec F S2000x256 .f32 :=
  View.canon [⟨rw_S2000x256, k0_pay1 (View.ld x0 rw_S2000x128) (View.ld x1 rw_S2000x128) (View.ld x2 rw_S128x256) (View.ld x3 rw_S1x256) (View.ld x4 rw_S256x256) (View.ld x5 rw_S1x256)⟩]

/-- The store tiles the buffer, so it covers it. -/
theorem cover0_6 (p0 : Vec F S2000x256 .f32) (y : S2000x256.Idx) :
    ∃ pc ∈ ([⟨rw_S2000x256, p0⟩] : List (View.Piece (Elt F) S2000x256 .f32)), y ∈ pc.1.set :=
  View.cover_of_tiled [⟨rw_S2000x256, p0⟩] S2000x256.size (by rfl) y

/-! ## The body's triple -/

set_option maxHeartbeats 4000000 in
/-- The kernel body on whole staging memrefs, the inputs' at read contents and the output's at anything, runs to the
    continuation holding the inputs' as they were and the output's at `out0_6` of the inputs'. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 x1 : Vec F S2000x128 .f32) (x2 : Vec F S128x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at the perceptron of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Run.lean ====
/-
  Region 1 (the second layer's perceptron fused with the readout, a row-block sum accumulated in a scratch
  buffer carried between the grid's points), first part: the two conditions of the body in closed form, where
  the output window is idle, the staging memrefs at a point, and the body's triple in each of the three control
  cases (first point, interior points, last point), with explicit contents.
-/
import proofs.«121622_j79328045957731_1_alg».proof.Proof.Gen.Kernel.Launch
import proofs.«121622_j79328045957731_1_alg».proof.Proof.Gen.Kernel.Skeleton
import proofs.«121622_j79328045957731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first conditional (the accumulator is zeroed): the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second conditional (the accumulator is copied to the output block): the grid coordinate is 24. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from the last point the output block is not stored into, and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last point it is stored into. -/
theorem liveAt1_8 : ∀ t : Fin cfg1.N, cond1_1 (grid1.coords t) → cfg1.idle 8 (grid1.coords t) = false := by decide +kernel

/-! ## The staging memrefs at a point, and the scratch -/

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev scM1_0 : Memref sig .tc .vmem S1x128 .f32 := Memref.whole cc1_scratch0

/-! ## The body's triple, case by case -/

/-- The zero offsets of a rank-2 rectangle, as a constant function. -/
private theorem hz2 : (![0, 0] : Fin 2 → Nat) = fun _ => 0 := funext fun a => by fin_cases a <;> rfl

set_option maxHeartbeats 1000000 in
/-- The body at an interior point (neither conditional taken), on whole memrefs: the inputs' at their contents,
    the output block's at contents handed back untouched, the accumulator's at what the point before left. It
    runs to the continuation holding the inputs' as they were and the accumulator at the block's column sums
    added to what it held. -/
theorem sound_kernel1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32) (xs0 : Vec F S1x128 .f32) (xi8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (xi8) ∗ owns (c : Thread nD τ) arg10 fullShare (k1_pay1 (k1_pay3 x0 x1 x2 x3 x4 x5 x6) (k1_pay4 x7) xs0)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8
  obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  refine (View.read_writes_eq_canon _ _ _ ?cov).trans ?val
  case cov => exact fun y => ⟨_, List.mem_singleton_self _, View.mem_set_unit_zero (S := S1x128) hz2 inb_S1x128_S1x128_0_0 y⟩
  case val =>
    rw [View.canon_unit_zero (S := S1x128) hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

set_option maxHeartbeats 1000000 in
/-- The body at the first point (the first conditional taken): the accumulator, at anything, is zeroed first,
    so it is left at the block's column sums added to the zero row. -/
theorem sound_kernel1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32)  (xi8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (xi8) ∗ owns (c : Thread nD τ) arg10 fullShare (k1_pay1 (k1_pay3 x0 x1 x2 x3 x4 x5 x6) (k1_pay4 x7) k1_pay2)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8

  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  sl_unfold_run_names
  refine (View.read_writes_eq_canon _ _ _ ?cov).trans ?val
  case cov => exact fun y => ⟨_, List.mem_cons.mpr (.inl rfl), View.mem_set_unit_zero (S := S1x128) hz2 inb_S1x128_S1x128_0_0 y⟩
  case val =>
    rw [View.canon_cons_unit_zero (S := S1x128) hz2, View.readCov_unit_zero (S := S1x128) _ hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

set_option maxHeartbeats 1000000 in
/-- The body at the last point (the second conditional taken): the accumulator is updated as at an interior
    point, then copied whole into the output block's buffer, held at anything before. -/
theorem sound_kernel1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32) (xs0 : Vec F S1x128 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k1_pay1 (k1_pay3 x0 x1 x2 x3 x4 x5 x6) (k1_pay4 x7) xs0) ∗ owns (c : Thread nD τ) arg10 fullShare (k1_pay1 (k1_pay3 x0 x1 x2 x3 x4 x5 x6) (k1_pay4 x7) xs0)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7

  obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    refine (View.read_writes_eq_canon _ _ _ ?cov).trans ?val
    case cov => exact fun y => ⟨_, List.mem_singleton_self _, View.mem_set_unit_zero (S := S1x128) hz2 inb_S1x128_S1x128_0_0 y⟩
    case val =>
      rw [View.canon_unit_zero (S := S1x128) hz2, View.readCov_unit_zero (S := S1x128) _ hz2]
      simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]
  iexists _; isplitr
  swap; · iexact HS0
  ipureintro
  sl_unfold_run_names
  refine (View.read_writes_eq_canon _ _ _ ?cov).trans ?val
  case cov => exact fun y => ⟨_, List.mem_singleton_self _, View.mem_set_unit_zero (S := S1x128) hz2 inb_S1x128_S1x128_0_0 y⟩
  case val =>
    rw [View.canon_unit_zero (S := S1x128) hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

/-! ## The region's invariant: the scoped rest, with the accumulator apart -/

/-- The core's scoped buffers that are neither a staging buffer of this region nor the accumulator (the first
    region's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant, the accumulator owned as a memref at some contents. -/
theorem PhiA1_chain (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- It hands out the accumulator at some contents beside the rest and the generator register, -/
theorem PhiA1_out (c : Dev nD) :
    (Pipeline.ΦA spec1 c : sProp 𝕄)
      ⊢ iprop(iprop(rest1 c ∗ (∃ d, owns (c : Thread nD τ) scM1_0 fullShare d)) ∗ (∃ r, prngReg c r)) := by
  rw [PhiA1_chain]; unfold rest1
  iintro ⟨⟨R0, R1, R2, R3, R4, R5, R6, R7, R8, R9, HS⟩, Hg⟩
  isplitl [R0 R1 R2 R3 R4 R5 R6 R7 R8 R9 HS]
  · isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    · iexact HS
  · iexact Hg

/-- and takes it back. -/
theorem PhiA1_in (c : Dev nD) :
    (iprop(iprop(rest1 c ∗ (∃ d, owns (c : Thread nD τ) scM1_0 fullShare d)) ∗ (∃ r, prngReg c r)) : sProp 𝕄)
      ⊢ Pipeline.ΦA spec1 c := by
  rw [PhiA1_chain]; unfold rest1
  iintro ⟨⟨⟨R0, R1, R2, R3, R4, R5, R6, R7, R8, R9⟩, HS⟩, Hg⟩
  isplitl [R0 R1 R2 R3 R4 R5 R6 R7 R8 R9 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  · iexact Hg

end Cert.Kernel.Hand

end
-- ==== Proof.BitsRegion1.lean ====
/-
  Region 1, second part, at a parameter for the TensorCore's buffer contents when the region is entered: each
  window's block at a point, the accumulator after each point (a recursion over the grid's points), the
  pipeline's proof data, the body obligation at every point, and the invariant's two ends.
-/
import proofs.«121622_j79328045957731_1_alg».proof.Proof.BitsRegion1Run

set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at position `n`: at the first point the block's column sums added
    to the zero row; afterwards added to what the point before left. -/
def accAt1 (c : Dev nD) : (n : ℕ) → n < cfg1.N → Vec F S1x128 .f32
  | 0, h0 => k1_pay1 (k1_pay3 (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩)) (k1_pay4 (iblk1 V c 7 ⟨0, h0⟩)) k1_pay2
  | n + 1, hn => k1_pay1 (k1_pay3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)) (k1_pay4 (iblk1 V c 7 ⟨n + 1, hn⟩)) (accAt1 c n (Nat.lt_of_succ_lt hn))

theorem accAt1_zero (c : Dev nD) (h0 : 0 < cfg1.N) :
    accAt1 V c 0 h0 = k1_pay1 (k1_pay3 (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩)) (k1_pay4 (iblk1 V c 7 ⟨0, h0⟩)) k1_pay2 := rfl

theorem accAt1_succ (c : Dev nD) (n : ℕ) (hn : n + 1 < cfg1.N) :
    accAt1 V c (n + 1) hn = k1_pay1 (k1_pay3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)) (k1_pay4 (iblk1 V c 7 ⟨n + 1, hn⟩)) (accAt1 V c n (Nat.lt_of_succ_lt hn)) := rfl

/-- At the first point, -/
theorem accAt1_first (c : Dev nD) (t : Fin cfg1.N) (hz : t.val = 0) :
    accAt1 V c t.val t.isLt = k1_pay1 (k1_pay3 (iblk1 V c 0 t) (iblk1 V c 1 t) (iblk1 V c 2 t) (iblk1 V c 3 t) (iblk1 V c 4 t) (iblk1 V c 5 t) (iblk1 V c 6 t)) (k1_pay4 (iblk1 V c 7 t)) k1_pay2 := by
  obtain ⟨n, hn⟩ := t
  cases n with
  | zero => rfl
  | succ n => exact absurd hz (Nat.succ_ne_zero n)

/-- and at a later one. -/
theorem accAt1_pos (c : Dev nD) (t : Fin cfg1.N) (hz : t.val ≠ 0) :
    accAt1 V c t.val t.isLt = k1_pay1 (k1_pay3 (iblk1 V c 0 t) (iblk1 V c 1 t) (iblk1 V c 2 t) (iblk1 V c 3 t) (iblk1 V c 4 t) (iblk1 V c 5 t) (iblk1 V c 6 t)) (k1_pay4 (iblk1 V c 7 t)) (accAt1 V c (t.val - 1) (Nat.lt_of_le_of_lt (Nat.sub_le _ _) t.isLt)) := by
  obtain ⟨n, hn⟩ := t
  cases n with
  | zero => exact absurd rfl hz
  | succ n => rfl

/-! ## The invariant, point by point -/

/-- Before the first point the class's invariant (the accumulator at anything); afterwards the accumulator at what
    the point before left, beside the scoped rest and the generator register. -/
def PhiS1 (c : Dev nD) : (n : ℕ) → n ≤ cfg1.N → sProp 𝕄
  | 0, _ => Pipeline.ΦA spec1 c
  | n + 1, hn => iprop(iprop(rest1 c ∗ owns (c : Thread nD τ) scM1_0 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1_0 fullShare (accAt1 V c n hn)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1_0 fullShare (accAt1 V c (n - 1) (by omega))) ∗ (∃ r, prngReg c r)) := by
  cases n with
  | zero => exact absurd rfl hz
  | succ n => rfl

/-! ## The pipeline's proof data -/

/-- The proof data of this pipeline on core `c`: the arrays as the region finds them; after the body at point
    `t` each input's buffer at its block, the output's at the accumulator's contents (consulted at the last
    point only: elsewhere the window is idle and not written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = accAt1 V c t.val t.isLt := by dsimp only [dat1]

/-- At the last point the output block's buffer is left at the accumulator's contents. -/
theorem after1_8_last (c : Dev nD) : (dat1 V c).after 8 ⟨24, by decide⟩ = accAt1 V c 24 (by decide) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which case the point is in;
    the invariant hands the body the accumulator at what the point before left (at anything at the first point)
    and takes it back at this point's contents; away from the last point the output block's buffer is handed
    back untouched, at the last point it is left at the accumulator's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h1 : t.val % 25 = 24
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 8 t = owns (c : Thread nD τ) (ms1_8 t) fullShare ((dat1 V c).after 8 t) from by
      unfold Dat.leavesExact; rw [liveAt1_8 t hc1], after1_8]
    rw [accAt1_pos V c t hz]
    rw [PhiS1_castSucc V c t, PhiS1_pos V c _ _ hz]
    iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, H8, HS0⟩
    isplitl [HR HS0 Hg]
    · isplitl [HR HS0]
      · isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1_1 (grid1.coords t) := fun h => h1 ((hcond1_1 t).mp h)
    rw [Dat.leavesExact_idle (dat1 V c) 8 t (idleAt1_8 t hc1) (noFlush1_8 t hc1)]
    by_cases h0 : t.val % 25 = 0
    · have hc0 : cond1_0 (grid1.coords t) := (hcond1_0 t).mpr h0
      have hz : t.val = 0 := by omega
      rw [accAt1_first V c t hz]
      rw [PhiS1_castSucc V c t, PhiS1_zero V c _ _ hz]
      refine (sep_mono (PhiA1_out (F := F) c) .rfl).trans ?_
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · have hc0 : ¬cond1_0 (grid1.coords t) := fun h => h0 ((hcond1_0 t).mp h)
      have hz : t.val ≠ 0 := by omega
      rw [accAt1_pos V c t hz]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_in (F := F) c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.Kernel.Hand

end
-- ==== Proof.BitsRun.lean ====
/-
  The run of the whole program: host operations, region 0, host operations, region 1, host operations. The contents of
  the core's unscoped buffers at each boundary are a fold from the launch memory (a host stretch applies its
  operations; a region leaves its arrays at what its write-backs made of them and every other buffer as entered).
  Every weakly fair execution terminates and every final memory holds each unscoped buffer at the last boundary's
  contents; the argument arrays walk back through the fold to the launch memory, which is the frame claim.
-/
import proofs.«121622_j79328045957731_1_alg».proof.Proof.BitsRegion0
import proofs.«121622_j79328045957731_1_alg».proof.Proof.BitsRegion1
import proofs.«121622_j79328045957731_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- After the last host stretch (the return). -/
abbrev W5 : Dev nD → Valuation τ sig (Elt F) := fun c => StableHlo.after hostOps2 (W4 m ρ c)

/-! ## A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (E1 m ρ) c).arrAt_in 4 rfl _).trans (A_eq0 (E1 m ρ) c 4))
    _ = W0 m ρ c (Proc.devRef .tc main_arg4) := W1_of m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := (W4_arr m ρ c 2).trans (((dat1 (E3 m ρ) c).arrAt_in 2 rfl _).trans (A_eq1 (E3 m ρ) c 2))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of m ρ c main_arg8 (by decide)
    _ = W3 m ρ c (Proc.devRef .tc main_arg8) := (W4_arr m ρ c 4).trans (((dat1 (E3 m ρ) c).arrAt_in 4 rfl _).trans (A_eq1 (E3 m ρ) c 4))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (E3 m ρ) c); unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev items : List (Pipeline.Seg (pcfgs (F := F)) noTables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (items m ρ) := (main_chain c).trans (by chain_rfl)

set_option backward.isDefEq.respectTransparency.types false in
/-- THE RUN: from any memory with zero counters every weakly fair execution terminates, nothing faulting, and every
    final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_all m ρ)

end Cert.Kernel.Hand

end
-- ==== Proof.Region0.lean ====
/-
  Region 0 of the program: one layer's perceptron on a block of 2000 node rows, at each of the 25 grid points.
  The body loads its six input blocks whole (the node rows, the aggregated rows, two weight matrices and two bias rows),
  computes the perceptron, and stores the 2000x256 result block whole. Stated at a parameter `V`: the contents of the
  core's buffers when the region is entered. What is proved: the body's triple on whole staging buffers, the proof
  data of the pipeline (each input window's buffer holds its block of `V`'s array, the output window's the
  perceptron of those blocks), and the body obligation at every grid point.
-/
import proofs.«121622_j79328045957731_1_alg».proof.Proof.Gen.KernelIdeal.Launch
import proofs.«121622_j79328045957731_1_alg».proof.Proof.Gen.KernelIdeal.Skeleton
import proofs.«121622_j79328045957731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole-buffer rectangle -/
abbrev rw_S2000x128 : Rect S2000x128 := Rect.unit (s := S2000x128) ![0, 0] S2000x128.size inb_S2000x128_S2000x128_0_0
abbrev rw_S128x256 : Rect S128x256 := Rect.unit (s := S128x256) ![0, 0] S128x256.size inb_S128x256_S128x256_0_0
abbrev rw_S1x256 : Rect S1x256 := Rect.unit (s := S1x256) ![0, 0] S1x256.size inb_S1x256_S1x256_0_0
abbrev rw_S256x256 : Rect S256x256 := Rect.unit (s := S256x256) ![0, 0] S256x256.size inb_S256x256_S256x256_0_0
abbrev rw_S2000x256 : Rect S2000x256 := Rect.unit (s := S2000x256) ![0, 0] S2000x256.size inb_S2000x256_S2000x256_0_0

/-- The output window's staging buffer after the body, from the input windows' blocks: its one store as a piece. -/
def out0_6 (x0 x1 : Vec F S2000x128 .f32) (x2 : Vec F S128x256 .f32) (x3 : Vec F S1x256 .f32) (x4 : Vec F S256x256 .f32) (x5 : Vec F S1x256 .f32) : Vec F S2000x256 .f32 :=
  View.canon [⟨rw_S2000x256, k0_pay1 (View.ld x0 rw_S2000x128) (View.ld x1 rw_S2000x128) (View.ld x2 rw_S128x256) (View.ld x3 rw_S1x256) (View.ld x4 rw_S256x256) (View.ld x5 rw_S1x256)⟩]

/-- The store tiles the buffer, so it covers it. -/
theorem cover0_6 (p0 : Vec F S2000x256 .f32) (y : S2000x256.Idx) :
    ∃ pc ∈ ([⟨rw_S2000x256, p0⟩] : List (View.Piece (Elt F) S2000x256 .f32)), y ∈ pc.1.set :=
  View.cover_of_tiled [⟨rw_S2000x256, p0⟩] S2000x256.size (by rfl) y

/-! ## The body's triple -/

set_option maxHeartbeats 4000000 in
/-- The kernel body on whole staging memrefs, the inputs' at read contents and the output's at anything, runs to the
    continuation holding the inputs' as they were and the output's at `out0_6` of the inputs'. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 x1 : Vec F S2000x128 .f32) (x2 : Vec F S128x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at the perceptron of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Run.lean ====
/-
  Region 1 (the second layer's perceptron fused with the readout, a row-block sum accumulated in a scratch
  buffer carried between the grid's points), first part: the two conditions of the body in closed form, where
  the output window is idle, the staging memrefs at a point, and the body's triple in each of the three control
  cases (first point, interior points, last point), with explicit contents.
-/
import proofs.«121622_j79328045957731_1_alg».proof.Proof.Gen.KernelIdeal.Launch
import proofs.«121622_j79328045957731_1_alg».proof.Proof.Gen.KernelIdeal.Skeleton
import proofs.«121622_j79328045957731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first conditional (the accumulator is zeroed): the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second conditional (the accumulator is copied to the output block): the grid coordinate is 24. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from the last point the output block is not stored into, and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last point it is stored into. -/
theorem liveAt1_8 : ∀ t : Fin cfg1.N, cond1_1 (grid1.coords t) → cfg1.idle 8 (grid1.coords t) = false := by decide +kernel

/-! ## The staging memrefs at a point, and the scratch -/

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev scM1_0 : Memref sig .tc .vmem S1x128 .f32 := Memref.whole cc1_scratch0

/-! ## The body's triple, case by case -/

/-- The zero offsets of a rank-2 rectangle, as a constant function. -/
private theorem hz2 : (![0, 0] : Fin 2 → Nat) = fun _ => 0 := funext fun a => by fin_cases a <;> rfl

set_option maxHeartbeats 1000000 in
/-- The body at an interior point (neither conditional taken), on whole memrefs: the inputs' at their contents,
    the output block's at contents handed back untouched, the accumulator's at what the point before left. It
    runs to the continuation holding the inputs' as they were and the accumulator at the block's column sums
    added to what it held. -/
theorem sound_kernel1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : ¬cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32) (xs0 : Vec F S1x128 .f32) (xi8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (xi8) ∗ owns (c : Thread nD τ) arg10 fullShare (k1_pay1 (k1_pay3 x0 x1 x2 x3 x4 x5 x6) (k1_pay4 x7) xs0)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8
  obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  refine (View.read_writes_eq_canon _ _ _ ?cov).trans ?val
  case cov => exact fun y => ⟨_, List.mem_singleton_self _, View.mem_set_unit_zero (S := S1x128) hz2 inb_S1x128_S1x128_0_0 y⟩
  case val =>
    rw [View.canon_unit_zero (S := S1x128) hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

set_option maxHeartbeats 1000000 in
/-- The body at the first point (the first conditional taken): the accumulator, at anything, is zeroed first,
    so it is left at the block's column sums added to the zero row. -/
theorem sound_kernel1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i) (hc1 : ¬cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32)  (xi8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (xi8) ∗ owns (c : Thread nD τ) arg10 fullShare (k1_pay1 (k1_pay3 x0 x1 x2 x3 x4 x5 x6) (k1_pay4 x7) k1_pay2)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8

  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  sl_unfold_run_names
  refine (View.read_writes_eq_canon _ _ _ ?cov).trans ?val
  case cov => exact fun y => ⟨_, List.mem_cons.mpr (.inl rfl), View.mem_set_unit_zero (S := S1x128) hz2 inb_S1x128_S1x128_0_0 y⟩
  case val =>
    rw [View.canon_cons_unit_zero (S := S1x128) hz2, View.readCov_unit_zero (S := S1x128) _ hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

set_option maxHeartbeats 1000000 in
/-- The body at the last point (the second conditional taken): the accumulator is updated as at an interior
    point, then copied whole into the output block's buffer, held at anything before. -/
theorem sound_kernel1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (hc1 : cond1_1 i)
    (x0 : Vec F S2000x256 .f32) (x1 : Vec F S2000x256 .f32) (x2 : Vec F S256x256 .f32) (x3 : Vec F S1x256 .f32) (x4 : Vec F S256x256 .f32) (x5 : Vec F S1x256 .f32) (x6 : Vec F S256x128 .f32) (x7 : Vec F S1x128 .f32) (xs0 : Vec F S1x128 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k1_pay1 (k1_pay3 x0 x1 x2 x3 x4 x5 x6) (k1_pay4 x7) xs0) ∗ owns (c : Thread nD τ) arg10 fullShare (k1_pay1 (k1_pay3 x0 x1 x2 x3 x4 x5 x6) (k1_pay4 x7) xs0)) -∗ K ⟨⟩))
      ⊢ wp frame (wpE (defs₀ (F := F)) Variants.none c none) E (cc1__gin_mlp_readout_kernel i arg1 harg1 arg2 harg2 arg3 harg3 arg4 harg4 arg5 harg5 arg6 harg6 arg7 harg7 arg8 harg8 arg9 harg9 arg10 harg10) K := by
  simp only [cc1__gin_mlp_readout_kernel_eq_skeleton]; unfold cc1__gin_mlp_readout_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7

  obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    refine (View.read_writes_eq_canon _ _ _ ?cov).trans ?val
    case cov => exact fun y => ⟨_, List.mem_singleton_self _, View.mem_set_unit_zero (S := S1x128) hz2 inb_S1x128_S1x128_0_0 y⟩
    case val =>
      rw [View.canon_unit_zero (S := S1x128) hz2, View.readCov_unit_zero (S := S1x128) _ hz2]
      simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]
  iexists _; isplitr
  swap; · iexact HS0
  ipureintro
  sl_unfold_run_names
  refine (View.read_writes_eq_canon _ _ _ ?cov).trans ?val
  case cov => exact fun y => ⟨_, List.mem_singleton_self _, View.mem_set_unit_zero (S := S1x128) hz2 inb_S1x128_S1x128_0_0 y⟩
  case val =>
    rw [View.canon_unit_zero (S := S1x128) hz2]
    simp only [View.readAt_eq_ld, harg1.read_unread, harg2.read_unread, harg3.read_unread, harg4.read_unread, harg5.read_unread, harg6.read_unread, harg7.read_unread, harg8.read_unread, harg10.read_unread, View.ld_unit_zero (S := S2000x256) hz2, View.ld_unit_zero (S := S256x256) hz2, View.ld_unit_zero (S := S1x256) hz2, View.ld_unit_zero (S := S256x128) hz2, View.ld_unit_zero (S := S1x128) hz2]

/-! ## The region's invariant: the scoped rest, with the accumulator apart -/

/-- The core's scoped buffers that are neither a staging buffer of this region nor the accumulator (the first
    region's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's invariant, the accumulator owned as a memref at some contents. -/
theorem PhiA1_chain (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- It hands out the accumulator at some contents beside the rest and the generator register, -/
theorem PhiA1_out (c : Dev nD) :
    (Pipeline.ΦA spec1 c : sProp 𝕄)
      ⊢ iprop(iprop(rest1 c ∗ (∃ d, owns (c : Thread nD τ) scM1_0 fullShare d)) ∗ (∃ r, prngReg c r)) := by
  rw [PhiA1_chain]; unfold rest1
  iintro ⟨⟨R0, R1, R2, R3, R4, R5, R6, R7, R8, R9, HS⟩, Hg⟩
  isplitl [R0 R1 R2 R3 R4 R5 R6 R7 R8 R9 HS]
  · isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    · iexact HS
  · iexact Hg

/-- and takes it back. -/
theorem PhiA1_in (c : Dev nD) :
    (iprop(iprop(rest1 c ∗ (∃ d, owns (c : Thread nD τ) scM1_0 fullShare d)) ∗ (∃ r, prngReg c r)) : sProp 𝕄)
      ⊢ Pipeline.ΦA spec1 c := by
  rw [PhiA1_chain]; unfold rest1
  iintro ⟨⟨⟨R0, R1, R2, R3, R4, R5, R6, R7, R8, R9⟩, HS⟩, Hg⟩
  isplitl [R0 R1 R2 R3 R4 R5 R6 R7 R8 R9 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  · iexact Hg

end Cert.KernelIdeal.Hand

end
-- ==== Proof.Region1.lean ====
/-
  Region 1, second part, at a parameter for the TensorCore's buffer contents when the region is entered: each
  window's block at a point, the accumulator after each point (a recursion over the grid's points), the
  pipeline's proof data, the body obligation at every point, and the invariant's two ends.
-/
import proofs.«121622_j79328045957731_1_alg».proof.Proof.Region1Run

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at position `n`: at the first point the block's column sums added
    to the zero row; afterwards added to what the point before left. -/
def accAt1 (c : Dev nD) : (n : ℕ) → n < cfg1.N → Vec F S1x128 .f32
  | 0, h0 => k1_pay1 (k1_pay3 (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩)) (k1_pay4 (iblk1 V c 7 ⟨0, h0⟩)) k1_pay2
  | n + 1, hn => k1_pay1 (k1_pay3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)) (k1_pay4 (iblk1 V c 7 ⟨n + 1, hn⟩)) (accAt1 c n (Nat.lt_of_succ_lt hn))

theorem accAt1_zero (c : Dev nD) (h0 : 0 < cfg1.N) :
    accAt1 V c 0 h0 = k1_pay1 (k1_pay3 (iblk1 V c 0 ⟨0, h0⟩) (iblk1 V c 1 ⟨0, h0⟩) (iblk1 V c 2 ⟨0, h0⟩) (iblk1 V c 3 ⟨0, h0⟩) (iblk1 V c 4 ⟨0, h0⟩) (iblk1 V c 5 ⟨0, h0⟩) (iblk1 V c 6 ⟨0, h0⟩)) (k1_pay4 (iblk1 V c 7 ⟨0, h0⟩)) k1_pay2 := rfl

theorem accAt1_succ (c : Dev nD) (n : ℕ) (hn : n + 1 < cfg1.N) :
    accAt1 V c (n + 1) hn = k1_pay1 (k1_pay3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)) (k1_pay4 (iblk1 V c 7 ⟨n + 1, hn⟩)) (accAt1 V c n (Nat.lt_of_succ_lt hn)) := rfl

/-- At the first point, -/
theorem accAt1_first (c : Dev nD) (t : Fin cfg1.N) (hz : t.val = 0) :
    accAt1 V c t.val t.isLt = k1_pay1 (k1_pay3 (iblk1 V c 0 t) (iblk1 V c 1 t) (iblk1 V c 2 t) (iblk1 V c 3 t) (iblk1 V c 4 t) (iblk1 V c 5 t) (iblk1 V c 6 t)) (k1_pay4 (iblk1 V c 7 t)) k1_pay2 := by
  obtain ⟨n, hn⟩ := t
  cases n with
  | zero => rfl
  | succ n => exact absurd hz (Nat.succ_ne_zero n)

/-- and at a later one. -/
theorem accAt1_pos (c : Dev nD) (t : Fin cfg1.N) (hz : t.val ≠ 0) :
    accAt1 V c t.val t.isLt = k1_pay1 (k1_pay3 (iblk1 V c 0 t) (iblk1 V c 1 t) (iblk1 V c 2 t) (iblk1 V c 3 t) (iblk1 V c 4 t) (iblk1 V c 5 t) (iblk1 V c 6 t)) (k1_pay4 (iblk1 V c 7 t)) (accAt1 V c (t.val - 1) (Nat.lt_of_le_of_lt (Nat.sub_le _ _) t.isLt)) := by
  obtain ⟨n, hn⟩ := t
  cases n with
  | zero => exact absurd rfl hz
  | succ n => rfl

/-! ## The invariant, point by point -/

/-- Before the first point the class's invariant (the accumulator at anything); afterwards the accumulator at what
    the point before left, beside the scoped rest and the generator register. -/
def PhiS1 (c : Dev nD) : (n : ℕ) → n ≤ cfg1.N → sProp 𝕄
  | 0, _ => Pipeline.ΦA spec1 c
  | n + 1, hn => iprop(iprop(rest1 c ∗ owns (c : Thread nD τ) scM1_0 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1_0 fullShare (accAt1 V c n hn)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1_0 fullShare (accAt1 V c (n - 1) (by omega))) ∗ (∃ r, prngReg c r)) := by
  cases n with
  | zero => exact absurd rfl hz
  | succ n => rfl

/-! ## The pipeline's proof data -/

/-- The proof data of this pipeline on core `c`: the arrays as the region finds them; after the body at point
    `t` each input's buffer at its block, the output's at the accumulator's contents (consulted at the last
    point only: elsewhere the window is idle and not written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = accAt1 V c t.val t.isLt := by dsimp only [dat1]

/-- At the last point the output block's buffer is left at the accumulator's contents. -/
theorem after1_8_last (c : Dev nD) : (dat1 V c).after 8 ⟨24, by decide⟩ = accAt1 V c 24 (by decide) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which case the point is in;
    the invariant hands the body the accumulator at what the point before left (at anything at the first point)
    and takes it back at this point's contents; away from the last point the output block's buffer is handed
    back untouched, at the last point it is left at the accumulator's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h1 : t.val % 25 = 24
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 8 t = owns (c : Thread nD τ) (ms1_8 t) fullShare ((dat1 V c).after 8 t) from by
      unfold Dat.leavesExact; rw [liveAt1_8 t hc1], after1_8]
    rw [accAt1_pos V c t hz]
    rw [PhiS1_castSucc V c t, PhiS1_pos V c _ _ hz]
    iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, H8, HS0⟩
    isplitl [HR HS0 Hg]
    · isplitl [HR HS0]
      · isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1_1 (grid1.coords t) := fun h => h1 ((hcond1_1 t).mp h)
    rw [Dat.leavesExact_idle (dat1 V c) 8 t (idleAt1_8 t hc1) (noFlush1_8 t hc1)]
    by_cases h0 : t.val % 25 = 0
    · have hc0 : cond1_0 (grid1.coords t) := (hcond1_0 t).mpr h0
      have hz : t.val = 0 := by omega
      rw [accAt1_first V c t hz]
      rw [PhiS1_castSucc V c t, PhiS1_zero V c _ _ hz]
      refine (sep_mono (PhiA1_out (F := F) c) .rfl).trans ?_
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · have hc0 : ¬cond1_0 (grid1.coords t) := fun h => h0 ((hcond1_0 t).mp h)
      have hz : t.val ≠ 0 := by omega
      rw [accAt1_pos V c t hz]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (iblk1 V c 7 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_in (F := F) c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.Run.lean ====
/-
  The run of the whole program: host operations, region 0, host operations, region 1, host operations. The contents of
  the core's unscoped buffers at each boundary are a fold from the launch memory (a host stretch applies its
  operations; a region leaves its arrays at what its write-backs made of them and every other buffer as entered).
  Every weakly fair execution terminates and every final memory holds each unscoped buffer at the last boundary's
  contents; the argument arrays walk back through the fold to the launch memory, which is the frame claim.
-/
import proofs.«121622_j79328045957731_1_alg».proof.Proof.Region0
import proofs.«121622_j79328045957731_1_alg».proof.Proof.Region1
import proofs.«121622_j79328045957731_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- After the last host stretch (the return). -/
abbrev W5 : Dev nD → Valuation τ sig (Elt F) := fun c => StableHlo.after hostOps2 (W4 m ρ c)

/-! ## A host stretch leaves every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (E1 m ρ) c).arrAt_in 4 rfl _).trans (A_eq0 (E1 m ρ) c 4))
    _ = W0 m ρ c (Proc.devRef .tc main_arg4) := W1_of m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := (W4_arr m ρ c 2).trans (((dat1 (E3 m ρ) c).arrAt_in 2 rfl _).trans (A_eq1 (E3 m ρ) c 2))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of m ρ c main_arg8 (by decide)
    _ = W3 m ρ c (Proc.devRef .tc main_arg8) := (W4_arr m ρ c 4).trans (((dat1 (E3 m ρ) c).arrAt_in 4 rfl _).trans (A_eq1 (E3 m ρ) c 4))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays
    are split out of the unscoped buffers and put back at the exit contents; the generator register goes into the
    region's invariant and comes back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays
    are split out of the unscoped buffers and put back at the exit contents; the generator register goes into the
    region's invariant and comes back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (E3 m ρ) c); unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev items : List (Pipeline.Seg (pcfgs (F := F)) noTables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (items m ρ) := (main_chain c).trans (by chain_rfl)

set_option backward.isDefEq.respectTransparency.types false in
/-- THE RUN: from any memory with zero counters every weakly fair execution terminates, nothing faulting, and every
    final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_all m ρ)

end Cert.KernelIdeal.Hand

end
-- ==== Proof.Spec.lean ====
/-
  The function both programs compute, written once on the extended reals: an affine layer read at one output
  column, the rectifier, one node's two-layer perceptron, and a whole layer of the network as an array of node rows.
  A layer's input row is the node's own row plus the sum of its neighbours' rows (the aggregated array `a`).
-/
import Idealize.ShloMosaic.PureOps.Ideal
import Idealize.ShloMosaic.Lib.ValueIdx

noncomputable section

namespace Cert.Spec

open Idealize.ShloMosaic Idealize.ShloMosaic.ValueIdx

/-- An affine layer read at one output column: `∑ k, z k * w k c + b c`. -/
def dense {K C : Nat} (z : Fin K → EReal) (w : Fin K → Fin C → EReal) (b : Fin C → EReal) (c : Fin C) : EReal :=
  (∑ k : Fin K, z k * w k c) + b c

/-- The rectifier. -/
def relu (a : EReal) : EReal := max a 0

/-- One node's perceptron: affine, rectifier, affine, rectifier. -/
def mlpRow {K : Nat} (z : Fin K → EReal) (wa : Fin K → Fin 256 → EReal) (ba : Fin 256 → EReal)
    (wb : Fin 256 → Fin 256 → EReal) (bb : Fin 256 → EReal) (c : Fin 256) : EReal :=
  relu (dense (fun k => relu (dense z wa ba k)) wb bb c)

/-- A layer of the network on arrays: node `n`'s output row is the perceptron of its own input row plus its
    aggregated row. -/
def layerArr {K : Nat} (h a : (⟨2, ![50000, K]⟩ : Shape).Idx → EReal) (wa : (⟨2, ![K, 256]⟩ : Shape).Idx → EReal)
    (ba : (⟨1, ![256]⟩ : Shape).Idx → EReal) (wb : (⟨2, ![256, 256]⟩ : Shape).Idx → EReal)
    (bb : (⟨1, ![256]⟩ : Shape).Idx → EReal) : (⟨2, ![50000, 256]⟩ : Shape).Idx → EReal :=
  fun j => mlpRow (fun k => h (ix2 (j 0) k) + a (ix2 (j 0) k)) (fun k c => wa (ix2 k c)) (fun c => ba (ix1 c))
    (fun k c => wb (ix2 k c)) (fun c => bb (ix1 c)) (j 1)

theorem layerArr_apply {K : Nat} (h a : (⟨2, ![50000, K]⟩ : Shape).Idx → EReal) (wa : (⟨2, ![K, 256]⟩ : Shape).Idx → EReal)
    (ba : (⟨1, ![256]⟩ : Shape).Idx → EReal) (wb : (⟨2, ![256, 256]⟩ : Shape).Idx → EReal)
    (bb : (⟨1, ![256]⟩ : Shape).Idx → EReal) (n : Fin 50000) (c : Fin 256) :
    layerArr h a wa ba wb bb (ix2 n c) = mlpRow (fun k => h (ix2 n k) + a (ix2 n k)) (fun k c => wa (ix2 k c))
      (fun c => ba (ix1 c)) (fun k c => wb (ix2 k c)) (fun c => bb (ix1 c)) c := rfl

/-- The readout summed over all nodes, at one class column, from the last layer's array. -/
def readout (h : (⟨2, ![50000, 256]⟩ : Shape).Idx → EReal) (lw : (⟨2, ![256, 6]⟩ : Shape).Idx → EReal)
    (lb : (⟨1, ![6]⟩ : Shape).Idx → EReal) (j : Fin 6) : EReal :=
  0 + ∑ n : Fin 50000, dense (fun k => h (ix2 n k)) (fun k c => lw (ix2 k c)) (fun c => lb (ix1 c)) j

end Cert.Spec

end
-- ==== Proof.PayIdeal.lean ====
/-
  The kernel bodies' arithmetic read at one index, on the extended reals: the format changes are the identity there,
  a matrix product into the zero block is the plain sum over the contracted coordinate, the row bias is broadcast
  over the rows, and the rectifier is the maximum with zero. So one layer's body at (r, c) is the node perceptron of
  the specification on row r of the sum of its two input blocks; the second layer's body is that perceptron followed
  by the product with the readout matrix; and the accumulation step adds, column by column, the sum over the block's
  rows of the readout plus its bias to the carried row.
-/
import proofs.«121622_j79328045957731_1_alg».proof.Proof.Gen.KernelIdeal.Skeleton
import proofs.«121622_j79328045957731_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Cert.KernelIdeal Cert.KernelIdeal.Gen Cert.Spec Idealize.ShloMosaic Idealize.ShloMosaic.ValueIdx

/-- The bias-row load passed through an identity cast is itself. -/
theorem k1_pay4_apply (v33 : Vec Ideal S1x128 .f32) (j : S1x128.Idx) : k1_pay4 (F := Ideal) v33 j = v33 j := by
  unfold k1_pay4
  rw [shapeCast_self]

/-- The reset row is zero in every column. -/
theorem k1_pay2_apply (c : Fin 128) : k1_pay2 (F := Ideal) (ix2 0 c) = 0 := by
  unfold k1_pay2
  rw [shapeCast_self]
  exact Ideal.ofBits_zero_f32

/-- The accumulation step at column c: the carried row plus the sum over the block's rows of the readout plus its
    bias row. -/
theorem k1_pay1_apply (v32 : FVec Ideal S2000x128 .f32) (v34 v37 : FVec Ideal S1x128 .f32) (c : Fin 128) :
    k1_pay1 (F := Ideal) v32 v34 v37 (ix2 0 c) = v37 (ix2 0 c) + ∑ r : Fin 2000, (v32 (ix2 r c) + v34 (ix2 0 c)) := by
  unfold k1_pay1
  rw [shapeCast_self, addf_apply]
  refine congrArg (v37 (ix2 0 c) + ·) ?_
  rw [shapeCast_a_1a_apply]
  refine (Ideal.multiReduction_add_single _ 0x00000000#32 reduces_S2000x128_S128 (.inl rfl) rfl (ix1 c)).trans ?_
  refine Finset.sum_congr rfl fun (r : Fin 2000) _ => ?_
  have hl : reduces_S2000x128_S128.lift (ix1 c) r = ix2 r c := by
    funext a; apply Fin.ext
    match a with
    | ⟨0, _⟩ => rfl
    | ⟨1, _⟩ => rfl
  rw [hl, addf_apply, broadcastTo_1b_ab_apply]

/-- A rows-by-columns matrix product into the zero block, read at (a, b): the sum over the contracted coordinate of
    the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- One affine layer with its rectifier as the bodies spell it — both operands passed through the format change,
    the product taken into the zero block, the bias row broadcast over the rows, the maximum with the zero splat —
    read at (r, c): the rectifier of the specification's affine layer on row r. -/
theorem layer_apply {K : Nat}
    (w : DotDims.WF ⟨2, ![2000, K]⟩ ⟨2, ![K, 256]⟩ ⟨2, ![2000, 256]⟩ [1] [0] [0] [1] [] [])
    (z : FVec Ideal ⟨2, ![2000, K]⟩ .f32) (W : FVec Ideal ⟨2, ![K, 256]⟩ .f32) (bias : FVec Ideal S1x256 .f32)
    (hlt : FTy.bits .bf16 < FTy.bits .f32) (hb : S1x256.Broadcasts S2000x256) (r : Fin 2000) (c : Fin 256) :
    maximumf (addf (matmul (⟨[1], [0], [0], [1], [], [], w⟩ : DotDims ⟨2, ![2000, K]⟩ ⟨2, ![K, 256]⟩ ⟨2, ![2000, 256]⟩) none
        (truncf .bf16 z hlt) (truncf .bf16 W hlt) (constant (F := Ideal) S2000x256 .f32 0x00000000#32))
        (broadcastTo S2000x256 bias hb)) (broadcast S2000x256 (Scalar.ofBits (F := Ideal) .f32 0x00000000#32)) (ix2 r c)
      = relu (dense (fun k => z (ix2 r k)) (fun k c => W (ix2 k c)) (fun c => bias (ix2 0 c)) c) := by
  rw [maximumf_apply, addf_apply, broadcastTo_1b_ab_apply, broadcast_apply]
  unfold relu dense
  refine congrArg₂ max (congrArg (· + bias (ix2 0 c)) ?_) Ideal.ofBits_zero_f32
  exact matmul_zero_ix2 w _ _ r c

/-- The first layer's body at (r, c): the node perceptron on row r of the sum of the two input blocks. -/
theorem k0_pay1_apply (v0 v1 : Vec Ideal S2000x128 .f32) (v5 : Vec Ideal S128x256 .f32) (v8 : Vec Ideal S1x256 .f32)
    (v15 : Vec Ideal S256x256 .f32) (v18 : Vec Ideal S1x256 .f32) (r : Fin 2000) (c : Fin 256) :
    k0_pay1 (F := Ideal) v0 v1 v5 v8 v15 v18 (ix2 r c)
      = mlpRow (fun k => v0 (ix2 r k) + v1 (ix2 r k)) (fun k c => v5 (ix2 k c)) (fun c => v8 (ix2 0 c))
          (fun k c => v15 (ix2 k c)) (fun c => v18 (ix2 0 c)) c := by
  unfold k0_pay1
  simp only [shapeCast_self]
  refine (layer_apply dot_S2000x256_S256x256_S2000x256_1_0_0_1_n_n_wf _ v15 v18 _ _ r c).trans ?_
  unfold mlpRow
  refine congrArg relu ?_
  refine congrArg (fun f => dense f (fun k c => v15 (ix2 k c)) (fun c => v18 (ix2 0 c)) c) (funext fun k => ?_)
  exact layer_apply dot_S2000x128_S128x256_S2000x256_1_0_0_1_n_n_wf (addf v0 v1) v5 v8 _ _ r k

/-- The second layer's body at (r, c): the node perceptron on row r of the sum of the two input blocks, then the
    product with the readout matrix — the sum over the perceptron's columns. -/
theorem k1_pay3_apply (v3 v5 : Vec Ideal S2000x256 .f32) (v9 : Vec Ideal S256x256 .f32) (v12 : Vec Ideal S1x256 .f32)
    (v19 : Vec Ideal S256x256 .f32) (v22 : Vec Ideal S1x256 .f32) (v29 : Vec Ideal S256x128 .f32)
    (r : Fin 2000) (c : Fin 128) :
    k1_pay3 (F := Ideal) v3 v5 v9 v12 v19 v22 v29 (ix2 r c)
      = ∑ k : Fin 256, mlpRow (fun k' => v3 (ix2 r k') + v5 (ix2 r k')) (fun k c => v9 (ix2 k c)) (fun c => v12 (ix2 0 c))
          (fun k c => v19 (ix2 k c)) (fun c => v22 (ix2 0 c)) k * v29 (ix2 k c) := by
  unfold k1_pay3
  simp only [shapeCast_self]
  refine (matmul_zero_ix2 dot_S2000x256_S256x128_S2000x128_1_0_0_1_n_n_wf _ _ r c).trans ?_
  refine Finset.sum_congr rfl fun k _ => ?_
  refine congrArg (· * v29 (ix2 k c)) ?_
  refine (layer_apply dot_S2000x256_S256x256_S2000x256_1_0_0_1_n_n_wf _ v19 v22 _ _ r k).trans ?_
  unfold mlpRow
  refine congrArg relu ?_
  refine congrArg (fun f => dense f (fun k c => v19 (ix2 k c)) (fun c => v22 (ix2 0 c)) k) (funext fun k' => ?_)
  exact layer_apply dot_S2000x256_S256x256_S2000x256_1_0_0_1_n_n_wf (addf v3 v5) v9 v12 _ _ r k'

end Cert.KernelIdeal.PayIdeal

end
-- ==== Proof.SumBlocks.lean ====
/-
  A sum over the 50000 rows regrouped as 25 consecutive blocks of 2000 rows.
-/
import Mathlib.Algebra.BigOperators.Fin
import Mathlib.Logic.Equiv.Fin.Basic

open scoped BigOperators

namespace Cert.SumBlocks

/-- The row of block `t` at offset `r`. -/
def row (t : Fin 25) (r : Fin 2000) : Fin 50000 :=
  ⟨2000 * t.val + r.val, by have := t.isLt; have := r.isLt; omega⟩

@[simp] theorem row_val (t : Fin 25) (r : Fin 2000) : (row t r).val = 2000 * t.val + r.val := rfl

/-- Rows are blocks times offsets: `(t, r) ↦ 2000 t + r` is a bijection. -/
def rowEquiv : Fin 25 × Fin 2000 ≃ Fin 50000 where
  toFun p := row p.1 p.2
  invFun n := (⟨n.val / 2000, by have := n.isLt; omega⟩, ⟨n.val % 2000, by omega⟩)
  left_inv p := by
    obtain ⟨t, r⟩ := p
    have ht := t.isLt; have hr := r.isLt
    refine Prod.ext (Fin.ext ?_) (Fin.ext ?_)
    · show (2000 * t.val + r.val) / 2000 = t.val
      omega
    · show (2000 * t.val + r.val) % 2000 = r.val
      omega
  right_inv n := by
    refine Fin.ext ?_
    show 2000 * (n.val / 2000) + n.val % 2000 = n.val
    omega

/-- A sum over all 50000 rows is the sum over the 25 blocks of the sums over each block's 2000 rows. -/
theorem sum_blocks {M : Type*} [AddCommMonoid M] (f : Fin 50000 → M) :
    ∑ n : Fin 50000, f n = ∑ t : Fin 25, ∑ r : Fin 2000, f ⟨2000 * t.val + r.val, by have := t.isLt; have := r.isLt; omega⟩ := by
  rw [← Equiv.sum_comp rowEquiv f, Fintype.sum_prod_type]
  rfl

/-- The same, with the row named. -/
theorem sum_blocks_row {M : Type*} [AddCommMonoid M] (f : Fin 50000 → M) :
    ∑ n : Fin 50000, f n = ∑ t : Fin 25, ∑ r : Fin 2000, f (row t r) := sum_blocks f

end Cert.SumBlocks
-- ==== Proof.Value0.lean ====
/-
  What region 0 leaves in its output array: row `n` of the array is the perceptron of row `n` of the node array
  plus row `n` of the aggregated array. Grid point `t` writes rows 2000·t … 2000·t + 1999 (its block), the blocks tile
  the 50000 rows, and each block is the corresponding rows of one whole-array function.
-/
import proofs.«121622_j79328045957731_1_alg».proof.Proof.Region0
import proofs.«121622_j79328045957731_1_alg».proof.Proof.PayIdeal
import proofs.«121622_j79328045957731_1_alg».proof.Proof.Spec
import proofs.«121622_j79328045957731_1_alg».proof.Proof.SumBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.SumBlocks Cert.KernelIdeal.PayIdeal Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- A layer on arrays whose two bias rows are kept as 1×256 arrays (as the kernel receives them). -/
def layerRows {K : Nat} (h a : (⟨2, ![50000, K]⟩ : Shape).Idx → EReal) (wa : (⟨2, ![K, 256]⟩ : Shape).Idx → EReal)
    (ba : (⟨2, ![1, 256]⟩ : Shape).Idx → EReal) (wb : (⟨2, ![256, 256]⟩ : Shape).Idx → EReal)
    (bb : (⟨2, ![1, 256]⟩ : Shape).Idx → EReal) : (⟨2, ![50000, 256]⟩ : Shape).Idx → EReal :=
  fun j => mlpRow (fun k => h (ix2 (j 0) k) + a (ix2 (j 0) k)) (fun k c => wa (ix2 k c)) (fun c => ba (ix2 0 c))
    (fun k c => wb (ix2 k c)) (fun c => bb (ix2 0 c)) (j 1)

theorem layerRows_of {K : Nat} (h a : (⟨2, ![50000, K]⟩ : Shape).Idx → EReal) (wa : (⟨2, ![K, 256]⟩ : Shape).Idx → EReal)
    (ba : (⟨2, ![1, 256]⟩ : Shape).Idx → EReal) (wb : (⟨2, ![256, 256]⟩ : Shape).Idx → EReal)
    (bb : (⟨2, ![1, 256]⟩ : Shape).Idx → EReal) (i : (⟨2, ![50000, 256]⟩ : Shape).Idx) (n : Fin 50000) (q : Fin 256)
    (h0 : (i 0).val = n.val) (h1 : (i 1).val = q.val) :
    layerRows h a wa ba wb bb i = mlpRow (fun k => h (ix2 n k) + a (ix2 n k)) (fun k c => wa (ix2 k c)) (fun c => ba (ix2 0 c))
      (fun k c => wb (ix2 k c)) (fun c => bb (ix2 0 c)) q := by
  obtain rfl : i = ix2 n q := by
    funext a; apply Fin.ext
    match a with
    | ⟨0, _⟩ => exact h0
    | ⟨1, _⟩ => exact h1
  rfl

/-- The array region 0's output window ends holding. -/
def G0 (c : Dev nD) : S50000x256.Idx → EReal :=
  layerRows (V c main_arg0) (V c main_v13) (V c main_arg2) (V c main_v14) (V c main_arg4) (V c main_v15)

/-- The printed index maps, decided over the grid: the row-blocked windows sit at block `t`, the others at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 25 := lt_of_lt_of_eq t.isLt (show cfg0.N = 25 from N_0)

/-- The row of the whole array that row `r` of block `t` is. -/
abbrev row0 (t : Fin cfg0.N) (r : Fin 2000) : Fin 50000 := ⟨2000 * t.val + r.val, by have := tlt0 t; have := r.isLt; omega⟩

/-! ## Each input block read at coordinates -/

theorem blk0_0 (c : Dev nD) (t : Fin cfg0.N) (r : Fin 2000) (k : Fin 128) :
    iblk0 V c 0 t (ix2 r k) = V c main_arg0 (ix2 (row0 t r) k) := by
  obtain ⟨e0, e1, -⟩ := idx0 t
  show V c main_arg0 (((cfg0.win 0).blk t).view.emb (ix2 r k)) = _
  refine congrArg _ ?_
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

theorem blk0_1 (c : Dev nD) (t : Fin cfg0.N) (r : Fin 2000) (k : Fin 128) :
    iblk0 V c 1 t (ix2 r k) = V c main_v13 (ix2 (row0 t r) k) := by
  obtain ⟨-, -, e0, e1, -⟩ := idx0 t
  show V c main_v13 (((cfg0.win 1).blk t).view.emb (ix2 r k)) = _
  refine congrArg _ ?_
  funext a; apply Fin.ext
  match a with
  | ⟨0, _⟩ => show win0_1.index t (0 : Fin 2) * 2000 + 1 * r.val = 2000 * t.val + r.val; omega
  | ⟨1, _⟩ => show win0_1.index t (1 : Fin 2) * 128 + 1 * k.val = k.val; omega

theorem blk0_2 (c : Dev nD) (t : Fin cfg0.N) (k : Fin 128) (q : Fin 256) :
    iblk0 V c 2 t (ix2 k q) = V c main_arg2 (ix2 k q) := by
  obtain ⟨-, -, -, -, e0, e1, -⟩ := idx0 t
  show V c main_arg2 (((cfg0.win 2).blk t).view.emb (ix2 k q)) = _
  refine congrArg _ ?_
  funext a; apply Fin.ext
  match a with
  | ⟨0, _⟩ => show win0_2.index t (0 : Fin 2) * 128 + 1 * k.val = k.val; omega
  | ⟨1, _⟩ => show win0_2.index t (1 : Fin 2) * 256 + 1 * q.val = q.val; omega

theorem blk0_3 (c : Dev nD) (t : Fin cfg0.N) (z : Fin 1) (q : Fin 256) :
    iblk0 V c 3 t (ix2 z q) = V c main_v14 (ix2 z q) := by
  obtain ⟨-, -, -, -, -, -, e0, e1, -⟩ := idx0 t
  show V c main_v14 (((cfg0.win 3).blk t).view.emb (ix2 z q)) = _
  refine congrArg _ ?_
  funext a; apply Fin.ext
  match a with
  | ⟨0, _⟩ => show win0_3.index t (0 : Fin 2) * 1 + 1 * z.val = z.val; omega
  | ⟨1, _⟩ => show win0_3.index t (1 : Fin 2) * 256 + 1 * q.val = q.val; omega

theorem blk0_4 (c : Dev nD) (t : Fin cfg0.N) (k : Fin 256) (q : Fin 256) :
    iblk0 V c 4 t (ix2 k q) = V c main_arg4 (ix2 k q) := by
  obtain ⟨-, -, -, -, -, -, -, -, e0, e1, -⟩ := idx0 t
  show V c main_arg4 (((cfg0.win 4).blk t).view.emb (ix2 k q)) = _
  refine congrArg _ ?_
  funext a; apply Fin.ext
  match a with
  | ⟨0, _⟩ => show win0_4.index t (0 : Fin 2) * 256 + 1 * k.val = k.val; omega
  | ⟨1, _⟩ => show win0_4.index t (1 : Fin 2) * 256 + 1 * q.val = q.val; omega

theorem blk0_5 (c : Dev nD) (t : Fin cfg0.N) (z : Fin 1) (q : Fin 256) :
    iblk0 V c 5 t (ix2 z q) = V c main_v15 (ix2 z q) := by
  obtain ⟨-, -, -, -, -, -, -, -, -, -, e0, e1, -⟩ := idx0 t
  show V c main_v15 (((cfg0.win 5).blk t).view.emb (ix2 z q)) = _
  refine congrArg _ ?_
  funext a; apply Fin.ext
  match a with
  | ⟨0, _⟩ => show win0_5.index t (0 : Fin 2) * 1 + 1 * z.val = z.val; omega
  | ⟨1, _⟩ => show win0_5.index t (1 : Fin 2) * 256 + 1 * q.val = q.val; omega

/-! ## What a grid point writes back -/

/-- The body's result at (r, q), over variables: the perceptron of row r of the two row blocks. -/
theorem pay0_at (x0 x1 : Vec Ideal S2000x128 .f32) (x2 : Vec Ideal S128x256 .f32) (x3 : Vec Ideal S1x256 .f32)
    (x4 : Vec Ideal S256x256 .f32) (x5 : Vec Ideal S1x256 .f32) (j : S2000x256.Idx) (r : Fin 2000) (q : Fin 256)
    (h0 : (j 0).val = r.val) (h1 : (j 1).val = q.val) :
    k0_pay1 (F := Ideal) x0 x1 x2 x3 x4 x5 j = mlpRow (fun k => x0 (ix2 r k) + x1 (ix2 r k)) (fun k c => x2 (ix2 k c))
      (fun c => x3 (ix2 0 c)) (fun k c => x4 (ix2 k c)) (fun c => x5 (ix2 0 c)) q := by
  obtain rfl : j = ix2 r q := by
    funext a; apply Fin.ext
    match a with
    | ⟨0, _⟩ => exact h0
    | ⟨1, _⟩ => exact h1
  exact k0_pay1_apply x0 x1 x2 x3 x4 x5 r q

/-- What point `t` writes back is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz, View.ld_unit_zero (S := S1x256) hz,
    View.ld_unit_zero (S := S256x256) hz]
  obtain ⟨-, -, -, -, -, -, -, -, -, -, -, -, e0, e1⟩ := idx0 t
  funext j
  show k0_pay1 (F := Ideal) (iblk0 V c 0 t) (iblk0 V c 1 t) (iblk0 V c 2 t) (iblk0 V c 3 t) (iblk0 V c 4 t) (iblk0 V c 5 t) j
    = G0 V c (((cfg0.win 6).blk t).view.emb j)
  have hj0 : (j 0).val < 2000 := (j 0).isLt
  have hj1 : (j 1).val < 256 := (j 1).isLt
  rw [pay0_at _ _ _ _ _ _ j ⟨(j 0).val, hj0⟩ ⟨(j 1).val, hj1⟩ rfl rfl]
  unfold G0
  rw [layerRows_of _ _ _ _ _ _ (((cfg0.win 6).blk t).view.emb j) (row0 t ⟨(j 0).val, hj0⟩) ⟨(j 1).val, hj1⟩
    (by show win0_6.index t (0 : Fin 2) * 2000 + 1 * (j 0).val = 2000 * t.val + (j 0).val; omega)
    (by show win0_6.index t (1 : Fin 2) * 256 + 1 * (j 1).val = (j 1).val; omega)]
  simp only [blk0_0, blk0_1, blk0_2, blk0_3, blk0_4, blk0_5]

/-- An index of the array is in point `t`'s block iff each coordinate is in the block's range. -/
theorem mem_blk0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v16).slice (win0_6.rect t)).set ↔ _
  rw [View.set_slice_whole, Rect.mem_set_unit]
  exact Iff.rfl

/-- Every row of the array is in some point's block. -/
theorem cover0 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  refine ⟨⟨(i 0).val / 2000, by rw [show cfg0.N = 25 from N_0]; omega⟩, flush0_6 _, ?_⟩
  rw [mem_blk0]
  obtain ⟨-, -, -, -, -, -, -, -, -, -, -, -, e0, e1⟩ := idx0 ⟨(i 0).val / 2000, by rw [show cfg0.N = 25 from N_0]; omega⟩
  intro a
  match a with
  | ⟨0, _⟩ => show win0_6.index _ (0 : Fin 2) * 2000 ≤ (i 0).val ∧ (i 0).val < win0_6.index _ (0 : Fin 2) * 2000 + 2000; rw [e0]; dsimp only; omega
  | ⟨1, _⟩ => show win0_6.index _ (1 : Fin 2) * 256 ≤ (i 1).val ∧ (i 1).val < win0_6.index _ (1 : Fin 2) * 256 + 256; rw [e1]; omega

/-- The output array after the region. -/
theorem final0 (c : Dev nD) : (dat0 V c).arrAt 6 cfg0.N = G0 V c :=
  (dat0 V c).arrAt_eq_of_cover 6 (G0 V c) (fun t _ => flushed0_eq V c t) (cover0)

end Cert.KernelIdeal.Hand

end
-- ==== Proof.HostVals.lean ====
/-
  What the host operations around the two regions put in the buffers the regions read, and what the last two host
  operations make of region 1's output: the bias vectors laid out as rows, the weights and node rows as launched,
  region 0's output array as region 1's input, and the first six entries of the summed readout row.
-/
import proofs.«121622_j79328045957731_1_alg».proof.Proof.Run
import proofs.«121622_j79328045957731_1_alg».proof.Proof.Value0
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.SumBlocks Cert.KernelIdeal.PayIdeal Idealize.ShloMosaic.ValueIdx Idealize.ShloMosaic.StableHlo

variable (m : (ℓ : Loc nD τ sig) → Buf (Elt Ideal) ℓ) (ρ : Dev nD → PrngReg)

/-! ## Small layout facts -/

/-- A 256-vector laid out as a 1×256 row, read at (0, q). -/
theorem bias_row (b : S256.Idx → EReal) (z : Fin 1) (q : Fin 256) :
    broadcastInDim S1x256 ![1] bcast_S256_S1x256_1 b (ix2 z q) = b (ix1 q) :=
  broadcastInDim_apply _ _ b _ _ fun a => by
    match a with
    | ⟨0, _⟩ => show q.val = if (256 : ℕ) = 1 then 0 else q.val; simp

/-- A 128-vector laid out as a 1×128 row, read at (0, q). -/
theorem pad_row (b : S128.Idx → EReal) (z : Fin 1) (q : Fin 128) :
    broadcastInDim S1x128 ![1] bcast_S128_S1x128_1 b (ix2 z q) = b (ix1 q) :=
  broadcastInDim_apply _ _ b _ _ fun a => by
    match a with
    | ⟨0, _⟩ => show q.val = if (128 : ℕ) = 1 then 0 else q.val; simp

/-- The first six entries of a 1×128 row, as a 6-vector. -/
theorem head6 (y : S1x128.Idx → EReal) (j : Fin 6) :
    shapeCast S6 (extractStridedSlice S1x6 ![0, 0] y slices_S1x128_S1x6_0_0) shapeCasts_S1x6_S6 (ix1 j)
      = y (ix2 0 ⟨j.val, by omega⟩) := by
  rw [shapeCast_apply _ _ (ix1 j) (ix2 (0 : Fin 1) j) (by rw [Shape.rowMajor_val_two, Shape.rowMajor_val_one]; simp)]
  exact extractStridedSlice_apply _ _ _ _ _ fun a => by
    match a with
    | ⟨0, _⟩ => rfl
    | ⟨1, _⟩ => show j.val = 0 + j.val; omega

/-! ## The first host stretch -/

theorem W1_v14 (c : Dev nD) : (W1 m ρ c (Proc.devRef .tc main_v14) : S1x256.Idx → EReal)
    = broadcastInDim S1x256 ![1] bcast_S256_S1x256_1 (m ((c : Thread nD τ).loc main_arg3)) := by
  dsimp only [W1, hostOps0]; after_results <;> rfl
theorem W1_v15 (c : Dev nD) : (W1 m ρ c (Proc.devRef .tc main_v15) : S1x256.Idx → EReal)
    = broadcastInDim S1x256 ![1] bcast_S256_S1x256_1 (m ((c : Thread nD τ).loc main_arg5)) := by
  dsimp only [W1, hostOps0]; after_results <;> rfl
theorem W1_arg0 (c : Dev nD) : W1 m ρ c (Proc.devRef .tc main_arg0) = m ((c : Thread nD τ).loc main_arg0) := W1_of m ρ c main_arg0 (by decide)
theorem W1_arg2 (c : Dev nD) : W1 m ρ c (Proc.devRef .tc main_arg2) = m ((c : Thread nD τ).loc main_arg2) := W1_of m ρ c main_arg2 (by decide)
theorem W1_arg4 (c : Dev nD) : W1 m ρ c (Proc.devRef .tc main_arg4) = m ((c : Thread nD τ).loc main_arg4) := W1_of m ρ c main_arg4 (by decide)

/-! ## Region 0's output is region 1's input -/

theorem W3_v16 (c : Dev nD) : W3 m ρ c (Proc.devRef .tc main_v16) = G0 (E1 m ρ) c :=
  (W3_of m ρ c main_v16 (by decide)).trans ((W2_arr m ρ c 6).trans (final0 (E1 m ρ) c))

/-! ## The second host stretch -/

theorem W3_v33 (c : Dev nD) : (W3 m ρ c (Proc.devRef .tc main_v33) : S1x256.Idx → EReal)
    = broadcastInDim S1x256 ![1] bcast_S256_S1x256_1 (W2 m ρ c (Proc.devRef .tc main_arg7)) := by
  dsimp only [W3, hostOps1]; after_results <;> rfl
theorem W3_v34 (c : Dev nD) : (W3 m ρ c (Proc.devRef .tc main_v34) : S1x256.Idx → EReal)
    = broadcastInDim S1x256 ![1] bcast_S256_S1x256_1 (W2 m ρ c (Proc.devRef .tc main_arg9)) := by
  dsimp only [W3, hostOps1]; after_results <;> rfl
theorem W3_v29 (c : Dev nD) : (W3 m ρ c (Proc.devRef .tc main_v29) : S256x128.Idx → EReal)
    = Host.scatter scatter_S256x128_S1_S256x6_01_n_1_0 (fun _ b => b)
        (broadcastInDim S256x128 ![] bcast_S_S256x128 (constant (F := Ideal) S_ .f32 0x00000000#32))
        (broadcastInDim S1 ![] bcast_S_S1 (constantI S_ 32 0#32)) (W2 m ρ c (Proc.devRef .tc main_arg10)) := by
  dsimp only [W3, hostOps1]; after_results <;> rfl
theorem W3_v35 (c : Dev nD) : (W3 m ρ c (Proc.devRef .tc main_v35) : S1x128.Idx → EReal)
    = broadcastInDim S1x128 ![1] bcast_S128_S1x128_1 (Host.scatter scatter_S128_S1_S6_0_n_0_0 (fun _ b => b)
        (broadcastInDim S128 ![] bcast_S_S128 (constant (F := Ideal) S_ .f32 0x00000000#32))
        (broadcastInDim S1 ![] bcast_S_S1 (constantI S_ 32 0#32)) (W2 m ρ c (Proc.devRef .tc main_arg11))) := by
  dsimp only [W3, hostOps1]; after_results <;> rfl

/-- An argument array no region writes and no host operation writes holds its launch contents at region 1's entry. -/
theorem W2_arg (c : Dev nD) (r : Ref sig .tc) (h2 : ∀ w, Pipeline.arrRef spec0 w ≠ r) (h1 : r ∉ hostOps0_W) :
    W2 m ρ c (Proc.devRef .tc r) = W0 m ρ c (Proc.devRef .tc r) :=
  (W2_of_ne m ρ c r h2).trans (W1_of m ρ c r h1)

theorem W3_arg6 (c : Dev nD) : W3 m ρ c (Proc.devRef .tc main_arg6) = m ((c : Thread nD τ).loc main_arg6) :=
  (W3_of m ρ c main_arg6 (by decide)).trans (W2_arg m ρ c main_arg6 (by decide) (by decide))
theorem W3_arg8 (c : Dev nD) : W3 m ρ c (Proc.devRef .tc main_arg8) = m ((c : Thread nD τ).loc main_arg8) :=
  (W3_of m ρ c main_arg8 (by decide)).trans (W2_arg m ρ c main_arg8 (by decide) (by decide))
theorem W2_arg7 (c : Dev nD) : W2 m ρ c (Proc.devRef .tc main_arg7) = m ((c : Thread nD τ).loc main_arg7) := W2_arg m ρ c main_arg7 (by decide) (by decide)
theorem W2_arg9 (c : Dev nD) : W2 m ρ c (Proc.devRef .tc main_arg9) = m ((c : Thread nD τ).loc main_arg9) := W2_arg m ρ c main_arg9 (by decide) (by decide)
theorem W2_arg10 (c : Dev nD) : W2 m ρ c (Proc.devRef .tc main_arg10) = m ((c : Thread nD τ).loc main_arg10) := W2_arg m ρ c main_arg10 (by decide) (by decide)
theorem W2_arg11 (c : Dev nD) : W2 m ρ c (Proc.devRef .tc main_arg11) = m ((c : Thread nD τ).loc main_arg11) := W2_arg m ρ c main_arg11 (by decide) (by decide)

/-! ## The last host stretch -/

theorem W5_v38 (c : Dev nD) : (W5 m ρ c (Proc.devRef .tc main_v38) : S6.Idx → EReal)
    = shapeCast S6 (extractStridedSlice S1x6 ![0, 0] (W4 m ρ c (Proc.devRef .tc main_v36)) slices_S1x128_S1x6_0_0) shapeCasts_S1x6_S6 := by
  dsimp only [W5, hostOps2]; after_results <;> rfl

/-- The program's result, entry `j`: entry (0, j) of region 1's output array. -/
theorem W5_v38_apply (c : Dev nD) (j : Fin 6) :
    (W5 m ρ c (Proc.devRef .tc main_v38) : S6.Idx → EReal) (ix1 j) = (dat1 (E3 m ρ) c).arrAt 8 cfg1.N (ix2 0 ⟨j.val, by omega⟩) := by
  rw [W5_v38, head6, W4_arr m ρ c 8]

end Cert.KernelIdeal.Hand

end
-- ==== Proof.Value1.lean ====
/-
  What region 1 leaves in its output array: the accumulator after the last grid point. After point `n` the
  accumulator's column `q` is zero plus, over the points up to `n`, the sum over the block's 2000 node rows of the
  readout of the second layer's perceptron row (at the padded readout matrix's column `q`, plus the padded bias).
-/
import proofs.«121622_j79328045957731_1_alg».proof.Proof.Region1
import proofs.«121622_j79328045957731_1_alg».proof.Proof.Value0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.SumBlocks Cert.KernelIdeal.PayIdeal Idealize.ShloMosaic.ValueIdx

variable (V : (c : Dev nD) → (b : Ref sig .tc) → Buf (Elt Ideal) ((c : Thread nD τ).loc b))

/-- The second layer's output array, from the arrays region 1 is entered with. -/
def H1 (c : Dev nD) : S50000x256.Idx → EReal :=
  layerRows (V c main_v16) (V c main_v26) (V c main_arg6) (V c main_v33) (V c main_arg8) (V c main_v34)

/-- The printed index maps, decided over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem tlt1 (t : Fin cfg1.N) : t.val < 25 := lt_of_lt_of_eq t.isLt (show cfg1.N = 25 from N_1)

abbrev row1 (t : Fin cfg1.N) (r : Fin 2000) : Fin 50000 := ⟨2000 * t.val + r.val, by have := tlt1 t; have := r.isLt; omega⟩

/-! ## Each input block read at coordinates -/

theorem blk1_0 (c : Dev nD) (t : Fin cfg1.N) (r : Fin 2000) (k : Fin 256) :
    iblk1 V c 0 t (ix2 r k) = V c main_v16 (ix2 (row1 t r) k) := by
  obtain ⟨e0, e1, -⟩ := idx1 t
  show V c main_v16 (((cfg1.win 0).blk t).view.emb (ix2 r k)) = _
  refine congrArg _ ?_
  funext a; apply Fin.ext
  match a with
  | ⟨0, _⟩ => show win1_0.index t (0 : Fin 2) * 2000 + 1 * r.val = 2000 * t.val + r.val; omega
  | ⟨1, _⟩ => show win1_0.index t (1 : Fin 2) * 256 + 1 * k.val = k.val; omega

theorem blk1_1 (c : Dev nD) (t : Fin cfg1.N) (r : Fin 2000) (k : Fin 256) :
    iblk1 V c 1 t (ix2 r k) = V c main_v26 (ix2 (row1 t r) k) := by
  obtain ⟨-, -, e0, e1, -⟩ := idx1 t
  show V c main_v26 (((cfg1.win 1).blk t).view.emb (ix2 r k)) = _
  refine congrArg _ ?_
  funext a; apply Fin.ext
  match a with
  | ⟨0, _⟩ => show win1_1.index t (0 : Fin 2) * 2000 + 1 * r.val = 2000 * t.val + r.val; omega
  | ⟨1, _⟩ => show win1_1.index t (1 : Fin 2) * 256 + 1 * k.val = k.val; omega

theorem blk1_2 (c : Dev nD) (t : Fin cfg1.N) (r : Fin 256) (k : Fin 256) :
    iblk1 V c 2 t (ix2 r k) = V c main_arg6 (ix2 r k) := by
  obtain ⟨-, -, -, -, e0, e1, -⟩ := idx1 t
  show V c main_arg6 (((cfg1.win 2).blk t).view.emb (ix2 r k)) = _
  refine congrArg _ ?_
  funext a; apply Fin.ext
  match a with
  | ⟨0, _⟩ => show win1_2.index t (0 : Fin 2) * 256 + 1 * r.val = r.val; omega
  | ⟨1, _⟩ => show win1_2.index t (1 : Fin 2) * 256 + 1 * k.val = k.val; omega

theorem blk1_3 (c : Dev nD) (t : Fin cfg1.N) (r : Fin 1) (k : Fin 256) :
    iblk1 V c 3 t (ix2 r k) = V c main_v33 (ix2 r k) := by
  obtain ⟨-, -, -, -, -, -, e0, e1, -⟩ := idx1 t
  show V c main_v33 (((cfg1.win 3).blk t).view.emb (ix2 r k)) = _
  refine congrArg _ ?_
  funext a; apply Fin.ext
  match a with
  | ⟨0, _⟩ => show win1_3.index t (0 : Fin 2) * 1 + 1 * r.val = r.val; omega
  | ⟨1, _⟩ => show win1_3.index t (1 : Fin 2) * 256 + 1 * k.val = k.val; omega

theorem blk1_4 (c : Dev nD) (t : Fin cfg1.N) (r : Fin 256) (k : Fin 256) :
    iblk1 V c 4 t (ix2 r k) = V c main_arg8 (ix2 r k) := by
  obtain ⟨-, -, -, -, -, -, -, -, e0, e1, -⟩ := idx1 t
  show V c main_arg8 (((cfg1.win 4).blk t).view.emb (ix2 r k)) = _
  refine congrArg _ ?_
  funext a; apply Fin.ext
  match a with
  | ⟨0, _⟩ => show win1_4.index t (0 : Fin 2) * 256 + 1 * r.val = r.val; omega
  | ⟨1, _⟩ => show win1_4.index t (1 : Fin 2) * 256 + 1 * k.val = k.val; omega

theorem blk1_5 (c : Dev nD) (t : Fin cfg1.N) (r : Fin 1) (k : Fin 256) :
    iblk1 V c 5 t (ix2 r k) = V c main_v34 (ix2 r k) := by
  obtain ⟨-, -, -, -, -, -, -, -, -, -, e0, e1, -⟩ := idx1 t
  show V c main_v34 (((cfg1.win 5).blk t).view.emb (ix2 r k)) = _
  refine congrArg _ ?_
  funext a; apply Fin.ext
  match a with
  | ⟨0, _⟩ => show win1_5.index t (0 : Fin 2) * 1 + 1 * r.val = r.val; omega
  | ⟨1, _⟩ => show win1_5.index t (1 : Fin 2) * 256 + 1 * k.val = k.val; omega

theorem blk1_6 (c : Dev nD) (t : Fin cfg1.N) (r : Fin 256) (k : Fin 128) :
    iblk1 V c 6 t (ix2 r k) = V c main_v29 (ix2 r k) := by
  obtain ⟨-, -, -, -, -, -, -, -, -, -, -, -, e0, e1, -⟩ := idx1 t
  show V c main_v29 (((cfg1.win 6).blk t).view.emb (ix2 r k)) = _
  refine congrArg _ ?_
  funext a; apply Fin.ext
  match a with
  | ⟨0, _⟩ => show win1_6.index t (0 : Fin 2) * 256 + 1 * r.val = r.val; omega
  | ⟨1, _⟩ => show win1_6.index t (1 : Fin 2) * 128 + 1 * k.val = k.val; omega

theorem blk1_7 (c : Dev nD) (t : Fin cfg1.N) (r : Fin 1) (k : Fin 128) :
    iblk1 V c 7 t (ix2 r k) = V c main_v35 (ix2 r k) := by
  obtain ⟨-, -, -, -, -, -, -, -, -, -, -, -, -, -, e0, e1, -⟩ := idx1 t
  show V c main_v35 (((cfg1.win 7).blk t).view.emb (ix2 r k)) = _
  refine congrArg _ ?_
  funext a; apply Fin.ext
  match a with
  | ⟨0, _⟩ => show win1_7.index t (0 : Fin 2) * 1 + 1 * r.val = r.val; omega
  | ⟨1, _⟩ => show win1_7.index t (1 : Fin 2) * 128 + 1 * k.val = k.val; omega

/-! ## The accumulator after each point -/

/-- One block's contribution to column `q`: the sum over its 2000 rows of the readout of the layer's row. -/
def blkSum (c : Dev nD) (t : Fin cfg1.N) (q : Fin 128) : EReal :=
  ∑ r : Fin 2000, ((∑ k : Fin 256, H1 V c (ix2 (row1 t r) k) * V c main_v29 (ix2 k q)) + V c main_v35 (ix2 0 q))

/-- The body's update of the accumulator at point `t`, column `q`, from the accumulator's previous column. -/
theorem step1 (c : Dev nD) (t : Fin cfg1.N) (prev : Vec Ideal S1x128 .f32) (q : Fin 128) :
    k1_pay1 (F := Ideal) (k1_pay3 (iblk1 V c 0 t) (iblk1 V c 1 t) (iblk1 V c 2 t) (iblk1 V c 3 t) (iblk1 V c 4 t) (iblk1 V c 5 t) (iblk1 V c 6 t))
      (k1_pay4 (iblk1 V c 7 t)) prev (ix2 0 q) = prev (ix2 0 q) + blkSum V c t q := by
  rw [k1_pay1_apply]
  refine congrArg (prev (ix2 0 q) + ·) (Finset.sum_congr rfl fun r _ => ?_)
  rw [k1_pay3_apply, k1_pay4_apply]
  refine congrArg₂ (· + ·) (Finset.sum_congr rfl fun k _ => ?_) (blk1_7 V c t 0 q)
  refine congrArg₂ (· * ·) ?_ (blk1_6 V c t k q)
  unfold H1
  rw [layerRows_of _ _ _ _ _ _ (ix2 (row1 t r) k) (row1 t r) k rfl rfl]
  simp only [blk1_0, blk1_1, blk1_2, blk1_3, blk1_4, blk1_5]

/-- After point `n` the accumulator's column `q` is zero plus the blocks' contributions up to `n`. -/
theorem acc_val (c : Dev nD) (q : Fin 128) : ∀ (n : ℕ) (hn : n < cfg1.N),
    accAt1 V c n hn (ix2 0 q) = 0 + ∑ i : Fin (n + 1), blkSum V c ⟨i.val, lt_of_lt_of_le i.isLt hn⟩ q
  | 0, h0 => by
    rw [accAt1_zero, step1, k1_pay2_apply, Fin.sum_univ_one]; rfl
  | n + 1, hn => by
    rw [accAt1_succ, step1, acc_val c q n (Nat.lt_of_succ_lt hn), add_assoc]
    refine congrArg (0 + ·) ?_
    exact (Fin.sum_univ_castSucc (fun i : Fin (n + 2) => blkSum V c ⟨i.val, lt_of_lt_of_le i.isLt hn⟩ q)).symm

/-- An index of the output array is in point `t`'s block iff each coordinate is in the block's range. -/
theorem mem_blk1 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v36).slice (win1_8.rect t)).set ↔ _
  rw [View.set_slice_whole, Rect.mem_set_unit]
  exact Iff.rfl

theorem last1 : (24 : ℕ) < cfg1.N := by rw [show cfg1.N = 25 from N_1]; omega

/-- The one write-back, at the last point, writes the accumulator's contents over the whole output array. -/
theorem flushed1_eq (c : Dev nD) (t : Fin cfg1.N) (hf : (cfg1.win 8).flush t = true) :
    (dat1 V c).flushed 8 t = ((cfg1.win 8).blk t).view.read (Elt Ideal) (accAt1 V c 24 last1) := by
  have h24 : t.val = 24 := by have := (flush1_8 t).mp hf; have := tlt1 t; omega
  obtain ⟨n, hn⟩ := t
  obtain rfl : n = 24 := h24
  show (cfg1.win 8).cut (grid1.coords ⟨24, hn⟩) ((dat1 V c).after 8 ⟨24, hn⟩) = _
  rw [after1_8]
  obtain ⟨-, -, -, -, -, -, -, -, -, -, -, -, -, -, -, -, e0, e1⟩ := idx1 ⟨24, hn⟩
  funext j
  show accAt1 V c 24 hn j = accAt1 V c 24 last1 (((cfg1.win 8).blk ⟨24, hn⟩).view.emb j)
  refine congrArg _ ?_
  funext a; apply Fin.ext
  match a with
  | ⟨0, _⟩ => show (j 0).val = win1_8.index ⟨24, hn⟩ (0 : Fin 2) * 1 + 1 * (j 0).val; omega
  | ⟨1, _⟩ => show (j 1).val = win1_8.index ⟨24, hn⟩ (1 : Fin 2) * 128 + 1 * (j 1).val; omega

theorem cover1 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  refine ⟨⟨24, last1⟩, (flush1_8 _).mpr (by decide), ?_⟩
  rw [mem_blk1]
  obtain ⟨-, -, -, -, -, -, -, -, -, -, -, -, -, -, -, -, e0, e1⟩ := idx1 ⟨24, last1⟩
  intro a
  match a with
  | ⟨0, _⟩ => show win1_8.index _ (0 : Fin 2) * 1 ≤ (i 0).val ∧ (i 0).val < win1_8.index _ (0 : Fin 2) * 1 + 1; rw [e0]; omega
  | ⟨1, _⟩ => show win1_8.index _ (1 : Fin 2) * 128 ≤ (i 1).val ∧ (i 1).val < win1_8.index _ (1 : Fin 2) * 128 + 128; rw [e1]; omega

/-- The output array after the region: the accumulator after the last point. -/
theorem final1 (c : Dev nD) : (dat1 V c).arrAt 8 cfg1.N = accAt1 V c 24 last1 :=
  (dat1 V c).arrAt_eq_of_cover 8 (accAt1 V c 24 last1) (fun t hf => flushed1_eq V c t hf) cover1

/-- Column `q` of the output array: zero plus the 25 blocks' contributions. -/
theorem final1_apply (c : Dev nD) (q : Fin 128) :
    (dat1 V c).arrAt 8 cfg1.N (ix2 0 q) = 0 + ∑ i : Fin 25, blkSum V c ⟨i.val, lt_of_lt_of_le i.isLt (Nat.succ_le_of_lt last1)⟩ q := by
  rw [final1]; exact acc_val V c q 24 last1

end Cert.KernelIdeal.Hand

end
-- ==== Proof.LibScatterSet.lean ====
/-
  A host scatter whose combiner keeps the update ("set"), read at an index an update lands on.
  The operation folds over the update indices in row-major order; at each one that lands inside the operand it
  overwrites the landing index with the update. If every update index lands inside and no two of them land on the
  same index, then after the whole fold the landing index of update j holds update j: later steps write elsewhere,
  and the only step that writes there writes that update. The general statement is about any left fold of
  "overwrite one index" steps; the scatter is an instance; and two instances are read off literal dimension
  numbers: a 256x6 block and a 6-vector written at start index 0 into 256x128 and 128-wide operands (padding on
  the right).
-/
import proofs.«121622_j79328045957731_1_alg».proof.Proof.Gen.KernelIdeal
import Idealize.ShloMosaic.Lib.ValueIdx

namespace Cert.Lib.ScatterSet

open Idealize.ShloMosaic Idealize.ShloMosaic.ValueIdx

/-! ## A left fold of steps that each overwrite one index -/

section Fold
variable {ι κ α : Type} (step : (ι → α) → κ → (ι → α)) (tgt : κ → ι) (val : κ → α)

/-- If no step of the list writes the index of `n` (the indices written are pairwise distinct and `n` is not in the
    list), the fold leaves that index as the accumulator had it. -/
theorem foldl_untouched (hmiss : ∀ r m i, i ≠ tgt m → step r m i = r i) (hinj : Function.Injective tgt)
    (L : List κ) (r : ι → α) (n : κ) (hn : n ∉ L) : L.foldl step r (tgt n) = r (tgt n) := by
  induction L generalizing r with
  | nil => rfl
  | cons m L ih =>
    have hnm : n ≠ m := fun h => hn (h ▸ List.mem_cons_self)
    have hnL : n ∉ L := fun h => hn (List.mem_cons_of_mem _ h)
    rw [List.foldl_cons, ih _ hnL]
    exact hmiss r m (tgt n) fun h => hnm (hinj h)

/-- If step `n` writes `val n` at `tgt n`, every step leaves the other indices alone, and distinct steps write distinct
    indices, then after folding over a list that contains `n` the index `tgt n` holds `val n`. -/
theorem foldl_set_apply (hhit : ∀ r m, step r m (tgt m) = val m) (hmiss : ∀ r m i, i ≠ tgt m → step r m i = r i)
    (hinj : Function.Injective tgt) (L : List κ) (r : ι → α) (n : κ) (hn : n ∈ L) :
    L.foldl step r (tgt n) = val n := by
  induction L generalizing r with
  | nil => exact absurd hn List.not_mem_nil
  | cons m L ih =>
    rw [List.foldl_cons]
    by_cases hL : n ∈ L
    · exact ih _ hL
    · have hnm : n = m := by
        rcases List.mem_cons.1 hn with h | h
        · exact h
        · exact absurd h hL
      subst hnm
      rw [foldl_untouched step tgt hmiss hinj L _ n hL]
      exact hhit r n

end Fold

/-! ## The scatter with the "set" combiner -/

/-- If every update index lands inside the operand, at `g j`, and `g` is injective, the scatter that keeps the update
    holds update `j` at `g j`. -/
theorem scatter_set_apply {s si u : Shape} {α : Type} {w : Nat} (d : ScatterDims s si u) (x : s.Idx → α)
    (idx : IVec si w) (upd : u.Idx → α) (g : u.Idx → s.Idx) (hland : ∀ j, d.resultIdx? j idx = some (g j))
    (hinj : Function.Injective g) (j : u.Idx) :
    Host.scatter d (fun _ b => b) x idx upd (g j) = upd j := by
  have key : ∀ n : Fin u.numel,
      Host.scatter d (fun _ b => b) x idx upd (g (u.rowMajor.symm n)) = upd (u.rowMajor.symm n) := by
    intro n
    unfold Host.scatter
    refine foldl_set_apply _ (fun n => g (u.rowMajor.symm n)) (fun n => upd (u.rowMajor.symm n)) ?_ ?_ ?_ _ x n
      (List.mem_finRange n)
    · intro r m
      simp only [hland]
      exact if_pos trivial
    · intro r m i hi
      simp only [hland]
      exact if_neg hi
    · intro a b hab
      exact u.rowMajor.symm.injective (hinj hab)
  have h := key (u.rowMajor j)
  rwa [Equiv.symm_apply_apply] at h

/-! ## Two instances: a block and a vector written at start index 0 (padding on the right) -/

section Instances
open Cert.KernelIdeal Cert.KernelIdeal.Gen
variable {α : Type}

/-- Where update (k, q) of the 256x6 block lands in the 256x128 operand when the start index is 0: at (k, q). -/
def landCols (j : S256x6.Idx) : S256x128.Idx :=
  ix2 (j 0) (⟨(j 1).val, by have := idx2_lt1 j; omega⟩ : Fin 128)

theorem landCols_injective : Function.Injective landCols := by
  intro a b h
  funext ax
  apply Fin.ext
  match ax with
  | ⟨0, _⟩ => exact congrArg (fun i : S256x128.Idx => (i 0).val) h
  | ⟨1, _⟩ => exact congrArg (fun i : S256x128.Idx => (i 1).val) h

theorem resultIdx_cols (I : IVec S1 32) (hI : I (ix1 0) = 0#32) (j : S256x6.Idx) :
    scatter_S256x128_S1_S256x6_01_n_1_0.resultIdx? j I = some (landCols j) := by
  have hs : ∀ a, scatter_S256x128_S1_S256x6_01_n_1_0.start j I a = 0 := by
    intro a
    unfold ScatterDims.start
    match a with
    | ⟨0, _⟩ => exact dif_neg (by decide +revert)
    | ⟨1, _⟩ =>
      rw [dif_pos (by decide +revert)]
      have hi : scatter_S256x128_S1_S256x6_01_n_1_0.siIdx j
          ⟨List.idxOf (⟨1, by decide⟩ : Fin S256x128.rank) scatter_S256x128_S1_S256x6_01_n_1_0.scatterDimsToOperandDims,
            List.idxOf_lt_length_iff.2 (by decide)⟩ = ix1 0 := by
        funext b
        apply Fin.ext
        match b with
        | ⟨0, _⟩ => rfl
      rw [hi, hI]
      rfl
  have hw : ∀ a, scatter_S256x128_S1_S256x6_01_n_1_0.window j a = (landCols j a).val := by
    intro a
    unfold ScatterDims.window
    match a with
    | ⟨0, _⟩ => rw [dif_pos (by decide +revert)]; rfl
    | ⟨1, _⟩ => rw [dif_pos (by decide +revert)]; rfl
  have hin : ∀ a, 0 ≤ scatter_S256x128_S1_S256x6_01_n_1_0.start j I a + scatter_S256x128_S1_S256x6_01_n_1_0.window j a
      ∧ scatter_S256x128_S1_S256x6_01_n_1_0.start j I a + scatter_S256x128_S1_S256x6_01_n_1_0.window j a < S256x128.size a := by
    intro a
    have := (landCols j a).isLt
    rw [hs a, hw a]
    omega
  unfold ScatterDims.resultIdx?
  rw [dif_pos hin]
  refine congrArg some (funext fun a => Fin.ext ?_)
  show (scatter_S256x128_S1_S256x6_01_n_1_0.start j I a + scatter_S256x128_S1_S256x6_01_n_1_0.window j a).toNat = (landCols j a).val
  rw [hs a, hw a]
  omega

/-- The 256x6 block written at start index 0 into a 256x128 operand: column q < 6 of row k holds the block's (k, q). -/
theorem scatter_set_cols (X : S256x128.Idx → α) (U : S256x6.Idx → α) (I : IVec S1 32) (hI : I (ix1 0) = 0#32)
    (k : Fin 256) (q : Fin 6) :
    Host.scatter scatter_S256x128_S1_S256x6_01_n_1_0 (fun _ b => b) X I U (ix2 k (⟨q.val, by omega⟩ : Fin 128)) = U (ix2 k q) :=
  scatter_set_apply scatter_S256x128_S1_S256x6_01_n_1_0 X I U landCols (resultIdx_cols I hI) landCols_injective (ix2 k q)

/-- Where update q of the 6-vector lands in the 128-wide operand when the start index is 0: at q. -/
def landVec (j : S6.Idx) : S128.Idx :=
  ix1 (⟨(j 0).val, by have h : (j 0).val < 6 := (j 0).isLt; omega⟩ : Fin 128)

theorem landVec_injective : Function.Injective landVec := by
  intro a b h
  funext ax
  apply Fin.ext
  match ax with
  | ⟨0, _⟩ => exact congrArg (fun i : S128.Idx => (i 0).val) h

theorem resultIdx_vec (I : IVec S1 32) (hI : I (ix1 0) = 0#32) (j : S6.Idx) :
    scatter_S128_S1_S6_0_n_0_0.resultIdx? j I = some (landVec j) := by
  have hs : ∀ a, scatter_S128_S1_S6_0_n_0_0.start j I a = 0 := by
    intro a
    unfold ScatterDims.start
    match a with
    | ⟨0, _⟩ =>
      rw [dif_pos (by decide +revert)]
      have hi : scatter_S128_S1_S6_0_n_0_0.siIdx j
          ⟨List.idxOf (⟨0, by decide⟩ : Fin S128.rank) scatter_S128_S1_S6_0_n_0_0.scatterDimsToOperandDims,
            List.idxOf_lt_length_iff.2 (by decide)⟩ = ix1 0 := by
        funext b
        apply Fin.ext
        match b with
        | ⟨0, _⟩ => rfl
      rw [hi, hI]
      rfl
  have hw : ∀ a, scatter_S128_S1_S6_0_n_0_0.window j a = (landVec j a).val := by
    intro a
    unfold ScatterDims.window
    match a with
    | ⟨0, _⟩ => rw [dif_pos (by decide +revert)]; rfl
  have hin : ∀ a, 0 ≤ scatter_S128_S1_S6_0_n_0_0.start j I a + scatter_S128_S1_S6_0_n_0_0.window j a
      ∧ scatter_S128_S1_S6_0_n_0_0.start j I a + scatter_S128_S1_S6_0_n_0_0.window j a < S128.size a := by
    intro a
    have := (landVec j a).isLt
    rw [hs a, hw a]
    omega
  unfold ScatterDims.resultIdx?
  rw [dif_pos hin]
  refine congrArg some (funext fun a => Fin.ext ?_)
  show (scatter_S128_S1_S6_0_n_0_0.start j I a + scatter_S128_S1_S6_0_n_0_0.window j a).toNat = (landVec j a).val
  rw [hs a, hw a]
  omega

/-- The 6-vector written at start index 0 into a 128-wide operand: entry q < 6 holds the vector's q. -/
theorem scatter_set_vec (X : S128.Idx → α) (U : S6.Idx → α) (I : IVec S1 32) (hI : I (ix1 0) = 0#32) (q : Fin 6) :
    Host.scatter scatter_S128_S1_S6_0_n_0_0 (fun _ b => b) X I U (ix1 (⟨q.val, by omega⟩ : Fin 128)) = U (ix1 q) :=
  scatter_set_apply scatter_S128_S1_S6_0_n_0_0 X I U landVec (resultIdx_vec I hI) landVec_injective (ix1 q)

end Instances

end Cert.Lib.ScatterSet
-- ==== Proof.RefValue.lean ====
/-
  The reference program's result as a closed term of its twelve argument arrays, and that term read as the
  two-layer network of the shared specification followed by the summed readout. The two neighbour aggregations
  (a gather of the source rows followed by a scatter-add onto the destination rows) are kept as closed terms of
  their inputs and never opened.
-/
import proofs.«121622_j79328045957731_1_alg».proof.Proof.Gen.ReferenceIdeal.Read
import proofs.«121622_j79328045957731_1_alg».proof.Proof.Gen.ReferenceIdeal.Run
import proofs.«121622_j79328045957731_1_alg».proof.Proof.Spec
import Idealize.ShloMosaic.Lib.ValueIdx
import Idealize.ShloMosaic.PureOps.Ideal.Laws
import Idealize.ShloMosaic.Lib.StableHlo.Run

noncomputable section

namespace Cert.ReferenceIdeal.RefValue

open Cert.ReferenceIdeal Cert.ReferenceIdeal.Gen Cert.Spec Idealize.ShloMosaic Idealize.ShloMosaic.ValueIdx
  Idealize.ShloMosaic.TcCoe Idealize.SL.Sem Idealize.ShloMosaic.StableHlo

/-! ## The aggregated arrays as closed terms -/

/-- The destination node of every edge: row 1 of the edge array, as a column of start indices. -/
def dstIdx (ei : IVec S2x800000 32) : IVec S800000x1 32 :=
  broadcastInDim S800000x1 ![0] bcast_S800000_S800000x1_0 (shapeCast _ (extractStridedSlice S1x800000 ![1, 0] ei slices_S2x800000_S1x800000_1_0) shapeCasts_S1x800000_S800000)

/-- The source node of every edge: row 0 of the edge array, a negative entry wrapped by adding 50000, as a column
    of start indices. -/
def srcIdx (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000) (broadcastInDim S800000 ![] bcast_S_S800000 (constantI S_ 32 0#32)))
      (addi (shapeCast _ (extractStridedSlice S1x800000 ![0, 0] ei slices_S2x800000_S1x800000_0_0) shapeCasts_S1x800000_S800000) (broadcastInDim S800000 ![] bcast_S_S800000 (constantI S_ 32 50000#32)))
      (shapeCast _ (extractStridedSlice S1x800000 ![0, 0] ei slices_S2x800000_S1x800000_0_0) shapeCasts_S1x800000_S800000))

/-- The first layer's aggregated array: the zero array with every edge's source row of `x` added onto the edge's
    destination row. -/
def aggA (x : FVec Ideal S50000x128 .f32) (ei : IVec S2x800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstIdx ei)
    (Host.gather gather_S50000x128_S800000x1_S800000x128_1_0_n_n_0_1_1128 x (srcIdx ei))

/-- The second layer's aggregated array, the same over 256 columns. -/
def aggB (h : FVec Ideal S50000x256 .f32) (ei : IVec S2x800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (dstIdx ei)
    (Host.gather gather_S50000x256_S800000x1_S800000x256_1_0_n_n_0_1_1256 h (srcIdx ei))

/-- The reference's first scatter stage is `aggA`. -/
theorem aggA_val (x : FVec Ideal S50000x128 .f32) (ei : IVec S2x800000 32) :
    Read.val_main_v13 (F := Ideal) x ei = aggA x ei := rfl

/-- The reference's second scatter stage is `aggB` of the first layer's output. -/
theorem aggB_val (x : FVec Ideal S50000x128 .f32) (ei : IVec S2x800000 32) (w0a : FVec Ideal S128x256 .f32)
    (b0a : FVec Ideal S256 .f32) (w0b : FVec Ideal S256x256 .f32) (b0b : FVec Ideal S256 .f32) :
    Read.val_main_v34 (F := Ideal) x ei w0a b0a w0b b0b = aggB (Read.val_main_v24 (F := Ideal) x ei w0a b0a w0b b0b) ei := rfl

/-! ## Stages read at a node and a column -/

theorem zero0 (i : S50000x256.Idx) : Read.val_main_call0_v0 (F := Ideal) i = 0 := by
  rw [Read.val_main_call0_v0_apply, Read.val_main_call0_cst_apply]; exact Ideal.ofBits_zero_f32
theorem zero1 (i : S50000x256.Idx) : Read.val_main_call1_v0 (F := Ideal) i = 0 := by
  rw [Read.val_main_call1_v0_apply, Read.val_main_call1_cst_apply]; exact Ideal.ofBits_zero_f32
theorem zero2 (i : S50000x256.Idx) : Read.val_main_call2_v0 (F := Ideal) i = 0 := by
  rw [Read.val_main_call2_v0_apply, Read.val_main_call2_cst_apply]; exact Ideal.ofBits_zero_f32
theorem zero3 (i : S50000x256.Idx) : Read.val_main_call3_v0 (F := Ideal) i = 0 := by
  rw [Read.val_main_call3_v0_apply, Read.val_main_call3_cst_apply]; exact Ideal.ofBits_zero_f32

theorem bias17 (b : FVec Ideal S256 .f32) (n : Fin 50000) (c : Fin 256) :
    Read.val_main_v17 (F := Ideal) b (ix2 n c) = b (ix1 c) := by
  rw [Read.val_main_v17_apply, Read.val_main_v16_apply]
  congr 1; funext a; match a with | ⟨0, _⟩ => rfl
theorem bias22 (b : FVec Ideal S256 .f32) (n : Fin 50000) (c : Fin 256) :
    Read.val_main_v22 (F := Ideal) b (ix2 n c) = b (ix1 c) := by
  rw [Read.val_main_v22_apply, Read.val_main_v21_apply]
  congr 1; funext a; match a with | ⟨0, _⟩ => rfl
theorem bias38 (b : FVec Ideal S256 .f32) (n : Fin 50000) (c : Fin 256) :
    Read.val_main_v38 (F := Ideal) b (ix2 n c) = b (ix1 c) := by
  rw [Read.val_main_v38_apply, Read.val_main_v37_apply]
  congr 1; funext a; match a with | ⟨0, _⟩ => rfl
theorem bias43 (b : FVec Ideal S256 .f32) (n : Fin 50000) (c : Fin 256) :
    Read.val_main_v43 (F := Ideal) b (ix2 n c) = b (ix1 c) := by
  rw [Read.val_main_v43_apply, Read.val_main_v42_apply]
  congr 1; funext a; match a with | ⟨0, _⟩ => rfl
theorem bias48 (b : FVec Ideal S6 .f32) (n : Fin 50000) (c : Fin 6) :
    Read.val_main_v48 (F := Ideal) b (ix2 n c) = b (ix1 c) := by
  rw [Read.val_main_v48_apply, Read.val_main_v47_apply]
  congr 1; funext a; match a with | ⟨0, _⟩ => rfl

theorem lidx_v15 (n : Fin 50000) (c : Fin 256) (k : Fin 128) : Read.lidx_main_v15 (ix2 n c) k = ix2 n k := by
  funext a; match a with | ⟨0, _⟩ => rfl | ⟨1, _⟩ => rfl
theorem ridx_v15 (n : Fin 50000) (c : Fin 256) (k : Fin 128) : Read.ridx_main_v15 (ix2 n c) k = ix2 k c := by
  funext a; match a with | ⟨0, _⟩ => rfl | ⟨1, _⟩ => rfl
theorem lidx_v20 (n : Fin 50000) (c : Fin 256) (k : Fin 256) : Read.lidx_main_v20 (ix2 n c) k = ix2 n k := by
  funext a; match a with | ⟨0, _⟩ => rfl | ⟨1, _⟩ => rfl
theorem ridx_v20 (n : Fin 50000) (c : Fin 256) (k : Fin 256) : Read.ridx_main_v20 (ix2 n c) k = ix2 k c := by
  funext a; match a with | ⟨0, _⟩ => rfl | ⟨1, _⟩ => rfl
theorem lidx_v36 (n : Fin 50000) (c : Fin 256) (k : Fin 256) : Read.lidx_main_v36 (ix2 n c) k = ix2 n k := by
  funext a; match a with | ⟨0, _⟩ => rfl | ⟨1, _⟩ => rfl
theorem ridx_v36 (n : Fin 50000) (c : Fin 256) (k : Fin 256) : Read.ridx_main_v36 (ix2 n c) k = ix2 k c := by
  funext a; match a with | ⟨0, _⟩ => rfl | ⟨1, _⟩ => rfl
theorem lidx_v41 (n : Fin 50000) (c : Fin 256) (k : Fin 256) : Read.lidx_main_v41 (ix2 n c) k = ix2 n k := by
  funext a; match a with | ⟨0, _⟩ => rfl | ⟨1, _⟩ => rfl
theorem ridx_v41 (n : Fin 50000) (c : Fin 256) (k : Fin 256) : Read.ridx_main_v41 (ix2 n c) k = ix2 k c := by
  funext a; match a with | ⟨0, _⟩ => rfl | ⟨1, _⟩ => rfl
theorem lidx_v46 (n : Fin 50000) (c : Fin 6) (k : Fin 256) : Read.lidx_main_v46 (ix2 n c) k = ix2 n k := by
  funext a; match a with | ⟨0, _⟩ => rfl | ⟨1, _⟩ => rfl
theorem ridx_v46 (n : Fin 50000) (c : Fin 6) (k : Fin 256) : Read.ridx_main_v46 (ix2 n c) k = ix2 k c := by
  funext a; match a with | ⟨0, _⟩ => rfl | ⟨1, _⟩ => rfl

theorem dot_v15 (x : FVec Ideal S50000x128 .f32) (ei : IVec S2x800000 32) (w0a : FVec Ideal S128x256 .f32) (n : Fin 50000) (c : Fin 256) :
    Read.val_main_v15 (F := Ideal) x ei w0a (ix2 n c)
      = ∑ k : Fin 128, Read.val_main_v14 (F := Ideal) x ei (ix2 n k) * w0a (ix2 k c) := by
  rw [Read.val_main_v15_apply]
  refine Finset.sum_congr rfl fun k _ => ?_
  rw [lidx_v15, ridx_v15]

theorem dot_v20 (x : FVec Ideal S50000x128 .f32) (ei : IVec S2x800000 32) (w0a : FVec Ideal S128x256 .f32)
    (b0a : FVec Ideal S256 .f32) (w0b : FVec Ideal S256x256 .f32) (n : Fin 50000) (c : Fin 256) :
    Read.val_main_v20 (F := Ideal) x ei w0a b0a w0b (ix2 n c)
      = ∑ k : Fin 256, Read.val_main_v19 (F := Ideal) x ei w0a b0a (ix2 n k) * w0b (ix2 k c) := by
  rw [Read.val_main_v20_apply]
  refine Finset.sum_congr rfl fun k _ => ?_
  rw [lidx_v20, ridx_v20]

theorem dot_v36 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32) (n : Fin 50000) (c : Fin 256) :
    Read.val_main_v36 (F := Ideal) x ei w0a b0a w0b b0b w1a (ix2 n c)
      = ∑ k : Fin 256, Read.val_main_v35 (F := Ideal) x ei w0a b0a w0b b0b (ix2 n k) * w1a (ix2 k c) := by
  rw [Read.val_main_v36_apply]
  refine Finset.sum_congr rfl fun k _ => ?_
  rw [lidx_v36, ridx_v36]

theorem dot_v41 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (n : Fin 50000) (c : Fin 256) :
    Read.val_main_v41 (F := Ideal) x ei w0a b0a w0b b0b w1a b1a w1b (ix2 n c)
      = ∑ k : Fin 256, Read.val_main_v40 (F := Ideal) x ei w0a b0a w0b b0b w1a b1a (ix2 n k) * w1b (ix2 k c) := by
  rw [Read.val_main_v41_apply]
  refine Finset.sum_congr rfl fun k _ => ?_
  rw [lidx_v41, ridx_v41]

theorem dot_v46 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (b1b : FVec Ideal S256 .f32) (lw : FVec Ideal S256x6 .f32) (n : Fin 50000) (c : Fin 6) :
    Read.val_main_v46 (F := Ideal) x ei w0a b0a w0b b0b w1a b1a w1b b1b lw (ix2 n c)
      = ∑ k : Fin 256, Read.val_main_v45 (F := Ideal) x ei w0a b0a w0b b0b w1a b1a w1b b1b (ix2 n k) * lw (ix2 k c) := by
  rw [Read.val_main_v46_apply]
  refine Finset.sum_congr rfl fun k _ => ?_
  rw [lidx_v46, ridx_v46]

/-! ## The first layer -/

/-- The first layer's hidden row: the rectified first affine map of a node's own row plus its aggregated row. -/
theorem hidden1 (x : FVec Ideal S50000x128 .f32) (ei : IVec S2x800000 32) (w0a : FVec Ideal S128x256 .f32)
    (b0a : FVec Ideal S256 .f32) (n : Fin 50000) (k : Fin 256) :
    Read.val_main_v19 (F := Ideal) x ei w0a b0a (ix2 n k)
      = relu (dense (fun k' => x (ix2 n k') + aggA x ei (ix2 n k')) (fun k' c => w0a (ix2 k' c)) (fun c => b0a (ix1 c)) k) := by
  rw [Read.val_main_v19_apply, Read.val_main_v18_apply, dot_v15, bias17, zero0]
  simp only [Read.val_main_v14_apply, aggA_val]
  rfl

/-- The reference's first layer is the specification's layer of `x` and its aggregated array. -/
theorem stage1 (x : FVec Ideal S50000x128 .f32) (ei : IVec S2x800000 32) (w0a : FVec Ideal S128x256 .f32)
    (b0a : FVec Ideal S256 .f32) (w0b : FVec Ideal S256x256 .f32) (b0b : FVec Ideal S256 .f32) :
    Read.val_main_v24 (F := Ideal) x ei w0a b0a w0b b0b = layerArr x (aggA x ei) w0a b0a w0b b0b := by
  funext j
  obtain ⟨n, c, rfl⟩ : ∃ (n : Fin 50000) (c : Fin 256), j = ix2 n c := ⟨j 0, j 1, eq_ix2 j⟩
  rw [layerArr_apply, Read.val_main_v24_apply, Read.val_main_v23_apply, dot_v20, bias22, zero1]
  simp only [hidden1]
  rfl

/-! ## The second layer -/

/-- The second layer's hidden row, of the first layer's output `h` and its aggregated array. -/
theorem hidden2 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (n : Fin 50000) (k : Fin 256) :
    Read.val_main_v40 (F := Ideal) x ei w0a b0a w0b b0b w1a b1a (ix2 n k)
      = relu (dense (fun k' => Read.val_main_v24 (F := Ideal) x ei w0a b0a w0b b0b (ix2 n k')
            + aggB (Read.val_main_v24 (F := Ideal) x ei w0a b0a w0b b0b) ei (ix2 n k'))
          (fun k' c => w1a (ix2 k' c)) (fun c => b1a (ix1 c)) k) := by
  rw [Read.val_main_v40_apply, Read.val_main_v39_apply, dot_v36, bias38, zero2]
  simp only [Read.val_main_v35_apply, aggB_val]
  rfl

/-- The reference's second layer is the specification's layer of the first layer's output and its aggregated array. -/
theorem stage2 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (b1b : FVec Ideal S256 .f32) :
    Read.val_main_v45 (F := Ideal) x ei w0a b0a w0b b0b w1a b1a w1b b1b
      = layerArr (Read.val_main_v24 (F := Ideal) x ei w0a b0a w0b b0b) (aggB (Read.val_main_v24 (F := Ideal) x ei w0a b0a w0b b0b) ei) w1a b1a w1b b1b := by
  funext j
  obtain ⟨n, c, rfl⟩ : ∃ (n : Fin 50000) (c : Fin 256), j = ix2 n c := ⟨j 0, j 1, eq_ix2 j⟩
  rw [layerArr_apply, Read.val_main_v45_apply, Read.val_main_v44_apply, dot_v41, bias43, zero3]
  simp only [hidden2]
  rfl

/-! ## The readout -/

theorem idx_v50 (j : Fin 6) (n : Fin 50000) : Read.idx_main_v50 (ix1 j) n = ix2 n j := by
  funext a; match a with | ⟨0, _⟩ => rfl | ⟨1, _⟩ => rfl

/-- One node's readout row at a class column. -/
theorem out_row (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (b1b : FVec Ideal S256 .f32) (lw : FVec Ideal S256x6 .f32)
    (lb : FVec Ideal S6 .f32) (n : Fin 50000) (j : Fin 6) :
    Read.val_main_v49 (F := Ideal) x ei w0a b0a w0b b0b w1a b1a w1b b1b lw lb (ix2 n j)
      = dense (fun k => Read.val_main_v45 (F := Ideal) x ei w0a b0a w0b b0b w1a b1a w1b b1b (ix2 n k)) (fun k c => lw (ix2 k c)) (fun c => lb (ix1 c)) j := by
  rw [Read.val_main_v49_apply, dot_v46, bias48]
  rfl

/-- The reference's last stage is the specification's readout of the second layer's output. -/
theorem stage3 (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (b1b : FVec Ideal S256 .f32) (lw : FVec Ideal S256x6 .f32)
    (lb : FVec Ideal S6 .f32) :
    Read.val_main_v50 (F := Ideal) x ei w0a b0a w0b b0b w1a b1a w1b b1b lw lb
      = fun j => readout (Read.val_main_v45 (F := Ideal) x ei w0a b0a w0b b0b w1a b1a w1b b1b) lw lb (j 0) := by
  funext j
  obtain ⟨j, rfl⟩ : ∃ j' : Fin 6, j = ix1 j' := ⟨j 0, eq_ix1 j⟩
  rw [Read.val_main_v50_apply, Read.val_main_cst_4_apply]
  simp only [idx_v50, out_row]
  rw [Ideal.ofBits_def, Ideal.ofBits_zero_f32]
  rfl

/-! ## The result -/

/-- The reference's result, as a function of its twelve argument arrays, is the readout of the two specification
    layers over the two aggregated arrays. -/
theorem ref_result (x : FVec Ideal S50000x128 .f32) (ei : IVec S2x800000 32) (w0a : FVec Ideal S128x256 .f32)
    (b0a : FVec Ideal S256 .f32) (w0b : FVec Ideal S256x256 .f32) (b0b : FVec Ideal S256 .f32) (w1a : FVec Ideal S256x256 .f32)
    (b1a : FVec Ideal S256 .f32) (w1b : FVec Ideal S256x256 .f32) (b1b : FVec Ideal S256 .f32) (lw : FVec Ideal S256x6 .f32)
    (lb : FVec Ideal S6 .f32) :
    Read.val_main_v50 (F := Ideal) x ei w0a b0a w0b b0b w1a b1a w1b b1b lw lb
      = fun j => readout (layerArr (layerArr x (aggA x ei) w0a b0a w0b b0b) (aggB (layerArr x (aggA x ei) w0a b0a w0b b0b) ei) w1a b1a w1b b1b) lw lb (j 0) := by
  rw [stage3, stage2, stage1]

/-- The same for the term the run states. -/
theorem res_result (m : (ℓ : Loc nD τ sig) → Buf (Elt Ideal) ℓ) (c : Dev nD) :
    Value.res_main_v50 (F := Ideal) m c
      = Read.val_main_v50 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  Read.val_main_v50_eq m c

/-! ## The run -/

/-- The specification's result at the argument buffers of a memory. -/
def specOut (m : (ℓ : Loc nD τ sig) → Buf (Elt Ideal) ℓ) (c : Dev nD) : FVec Ideal S6 .f32 :=
  fun j => readout (layerArr (layerArr (m ((c.tc : Thread nD τ).loc main_arg0)) (aggA (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)))
            (aggB (layerArr (m ((c.tc : Thread nD τ).loc main_arg0)) (aggA (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)))
            (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (j 0)

/-- Every weakly fair execution of the reference terminates with its result at the specification's function of the
    argument arrays, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun j => readout (layerArr (layerArr (m ((c.tc : Thread nD τ).loc main_arg0)) (aggA (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)))
            (aggB (layerArr (m ((c.tc : Thread nD τ).loc main_arg0)) (aggA (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)))
            (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans ((res_result m c).trans (ref_result _ _ _ _ _ _ _ _ _ _ _ _)), (h c).2⟩)
    (Value.run (F := Ideal) m ρ)

/-- The same with the result named. -/
theorem run_specOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run_spec m ρ

end Cert.ReferenceIdeal.RefValue

end
-- ==== Proof.AggTerms.lean ====
/-
  The kernel program's two host stretches before its two kernels compute the same aggregated arrays as the
  reference: the operations are the same chain (slice, reshape, wrap of negative indices, broadcast, gather,
  scatter-add), over this program's own copies of the shape facts and dimension records.
-/
import proofs.«121622_j79328045957731_1_alg».proof.Proof.Gen.KernelIdeal.Launch
import proofs.«121622_j79328045957731_1_alg».proof.Proof.RefValue
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo
  Idealize.SL.Sem

/-- After the first host stretch, the flat row 0 of the edge array. -/
theorem after0_v1 (Wb : Valuation τ sig (Elt Ideal)) :
    StableHlo.after (hostOps0 (F := Ideal)) Wb (Proc.devRef .tc main_v1)
      = shapeCast _ (extractStridedSlice S1x800000 ![0, 0] (Wb (Proc.devRef .tc main_arg1)) slices_S2x800000_S1x800000_0_0) shapeCasts_S1x800000_S800000 := by
  dsimp only [hostOps0]; after_results <;> rfl

/-- After the first host stretch, the flat row 1 of the edge array. -/
theorem after0_v3 (Wb : Valuation τ sig (Elt Ideal)) :
    StableHlo.after (hostOps0 (F := Ideal)) Wb (Proc.devRef .tc main_v3)
      = shapeCast _ (extractStridedSlice S1x800000 ![1, 0] (Wb (Proc.devRef .tc main_arg1)) slices_S2x800000_S1x800000_1_0) shapeCasts_S1x800000_S800000 := by
  dsimp only [hostOps0]; after_results <;> rfl

/-- After the first host stretch, the first aggregated array is the reference's, of the node rows and the edge array. -/
theorem after0_v13 (Wb : Valuation τ sig (Elt Ideal)) :
    StableHlo.after (hostOps0 (F := Ideal)) Wb (Proc.devRef .tc main_v13)
      = Cert.ReferenceIdeal.RefValue.aggA (Wb (Proc.devRef .tc main_arg0)) (Wb (Proc.devRef .tc main_arg1)) := by
  unfold Cert.ReferenceIdeal.RefValue.aggA Cert.ReferenceIdeal.RefValue.dstIdx Cert.ReferenceIdeal.RefValue.srcIdx
  dsimp only [hostOps0]; after_results <;> rfl

/-- After the second host stretch, the second aggregated array is the reference's, of the first kernel's output and
    the edge array, provided the two flat rows of the edge array are still where the first stretch left them. -/
theorem after1_v26 (Wb : Valuation τ sig (Elt Ideal)) (ei : IVec S2x800000 32)
    (h1 : Wb (Proc.devRef .tc main_v1) = (shapeCast _ (extractStridedSlice S1x800000 ![0, 0] ei slices_S2x800000_S1x800000_0_0) shapeCasts_S1x800000_S800000))
    (h3 : Wb (Proc.devRef .tc main_v3) = (shapeCast _ (extractStridedSlice S1x800000 ![1, 0] ei slices_S2x800000_S1x800000_1_0) shapeCasts_S1x800000_S800000)) :
    StableHlo.after (hostOps1 (F := Ideal)) Wb (Proc.devRef .tc main_v26)
      = Cert.ReferenceIdeal.RefValue.aggB (Wb (Proc.devRef .tc main_v16)) ei := by
  unfold Cert.ReferenceIdeal.RefValue.aggB Cert.ReferenceIdeal.RefValue.dstIdx Cert.ReferenceIdeal.RefValue.srcIdx
  dsimp only [hostOps1]; after_results
  rw [h1, h3]
  rfl

end Cert.KernelIdeal.Hand

end
-- ==== Proof.Bridge.lean ====
/-
  The kernel program's result is the reference's function of the arguments. Region 0's output array is the first
  layer of the network (bias rows read as vectors); region 1's accumulated row is zero plus the sum over the 25 blocks
  of 2000 node rows of the readout of the second layer's rows, which is the sum over all 50000 nodes regrouped; the
  padded readout matrix and bias agree with the unpadded ones on the first six columns; and the two aggregated arrays
  are the same host operations in both programs.
-/
import proofs.«121622_j79328045957731_1_alg».proof.Proof.HostVals
import proofs.«121622_j79328045957731_1_alg».proof.Proof.Value1
import proofs.«121622_j79328045957731_1_alg».proof.Proof.LibScatterSet
import proofs.«121622_j79328045957731_1_alg».proof.Proof.RefValue
import proofs.«121622_j79328045957731_1_alg».proof.Proof.AggTerms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.SumBlocks Cert.KernelIdeal.PayIdeal Idealize.ShloMosaic.ValueIdx Idealize.ShloMosaic.StableHlo
open Cert.Lib.ScatterSet Cert.ReferenceIdeal.RefValue

/-- A layer whose bias rows are vectors laid out as rows is the layer over the vectors. -/
theorem layerRows_bcast {K : Nat} (h a : (⟨2, ![50000, K]⟩ : Shape).Idx → EReal) (wa : (⟨2, ![K, 256]⟩ : Shape).Idx → EReal)
    (ba : S256.Idx → EReal) (wb : (⟨2, ![256, 256]⟩ : Shape).Idx → EReal) (bb : S256.Idx → EReal) :
    layerRows h a wa (broadcastInDim S1x256 ![1] bcast_S256_S1x256_1 ba) wb (broadcastInDim S1x256 ![1] bcast_S256_S1x256_1 bb)
      = layerArr h a wa ba wb bb := by
  have eb : ∀ b : S256.Idx → EReal,
      (fun c : Fin 256 => broadcastInDim S1x256 ![1] bcast_S256_S1x256_1 b (ix2 0 c)) = fun c => b (ix1 c) :=
    fun b => funext fun c => bias_row b 0 c
  funext j
  unfold layerRows layerArr
  rw [eb ba, eb bb]

/-- Zero plus the blocks' sums of readout rows, at a padded column that agrees with the unpadded one, is the readout
    summed over all nodes. -/
theorem readout_blocks (H : S50000x256.Idx → EReal) (lwp : S256x128.Idx → EReal) (lbp : S1x128.Idx → EReal)
    (lw : S256x6.Idx → EReal) (lb : S6.Idx → EReal) (j : Fin 6) (q : Fin 128)
    (hw : ∀ k : Fin 256, lwp (ix2 k q) = lw (ix2 k j)) (hb : lbp (ix2 0 q) = lb (ix1 j)) :
    0 + ∑ i : Fin 25, ∑ r : Fin 2000, ((∑ k : Fin 256, H (ix2 (row i r) k) * lwp (ix2 k q)) + lbp (ix2 0 q))
      = readout H lw lb j := by
  unfold readout dense
  rw [sum_blocks_row]
  simp only [hw, hb]

variable (m : (ℓ : Loc nD τ sig) → Buf (Elt Ideal) ℓ) (ρ : Dev nD → PrngReg)

/-- The first layer's array, from the launch memory. -/
abbrev layer1 (c : Dev nD) : S50000x256.Idx → EReal :=
  layerArr (m ((c : Thread nD τ).loc main_arg0)) (aggA (m ((c : Thread nD τ).loc main_arg0)) (m ((c : Thread nD τ).loc main_arg1)))
    (m ((c : Thread nD τ).loc main_arg2)) (m ((c : Thread nD τ).loc main_arg3)) (m ((c : Thread nD τ).loc main_arg4)) (m ((c : Thread nD τ).loc main_arg5))

/-- Region 0 leaves the first layer's array. -/
theorem G0_eq (c : Dev nD) : G0 (E1 m ρ) c = layer1 m c := by
  unfold G0 layer1
  rw [show E1 m ρ c main_arg0 = m ((c : Thread nD τ).loc main_arg0) from W1_arg0 m ρ c,
    show E1 m ρ c main_arg2 = m ((c : Thread nD τ).loc main_arg2) from W1_arg2 m ρ c,
    show E1 m ρ c main_arg4 = m ((c : Thread nD τ).loc main_arg4) from W1_arg4 m ρ c,
    show E1 m ρ c main_v14 = _ from W1_v14 m ρ c, show E1 m ρ c main_v15 = _ from W1_v15 m ρ c,
    show E1 m ρ c main_v13 = _ from after0_v13 (W0 m ρ c), layerRows_bcast]

/-- The edge endpoints, as the first host stretch lays them out, are still there at region 1's entry. -/
theorem W2_v1 (c : Dev nD) : W2 m ρ c (Proc.devRef .tc main_v1)
    = shapeCast _ (extractStridedSlice S1x800000 ![0, 0] (m ((c : Thread nD τ).loc main_arg1)) slices_S2x800000_S1x800000_0_0) shapeCasts_S1x800000_S800000 :=
  (W2_of_ne m ρ c main_v1 (by decide)).trans (after0_v1 (W0 m ρ c))
theorem W2_v3 (c : Dev nD) : W2 m ρ c (Proc.devRef .tc main_v3)
    = shapeCast _ (extractStridedSlice S1x800000 ![1, 0] (m ((c : Thread nD τ).loc main_arg1)) slices_S2x800000_S1x800000_1_0) shapeCasts_S1x800000_S800000 :=
  (W2_of_ne m ρ c main_v3 (by decide)).trans (after0_v3 (W0 m ρ c))

/-- The second layer's array, from the launch memory. -/
abbrev layer2 (c : Dev nD) : S50000x256.Idx → EReal :=
  layerArr (layer1 m c) (aggB (layer1 m c) (m ((c : Thread nD τ).loc main_arg1)))
    (m ((c : Thread nD τ).loc main_arg6)) (m ((c : Thread nD τ).loc main_arg7)) (m ((c : Thread nD τ).loc main_arg8)) (m ((c : Thread nD τ).loc main_arg9))

/-- Region 1 computes its readout from the second layer's array. -/
theorem H1_eq (c : Dev nD) : H1 (E3 m ρ) c = layer2 m c := by
  unfold H1 layer2
  have e16 : E3 m ρ c main_v16 = layer1 m c := (W3_v16 m ρ c).trans (G0_eq m ρ c)
  have e26 : E3 m ρ c main_v26 = aggB (layer1 m c) (m ((c : Thread nD τ).loc main_arg1)) := by
    refine (after1_v26 (W2 m ρ c) (m ((c : Thread nD τ).loc main_arg1)) (W2_v1 m ρ c) (W2_v3 m ρ c)).trans ?_
    rw [show W2 m ρ c (Proc.devRef .tc main_v16) = layer1 m c from ((W2_arr m ρ c 6).trans (final0 (E1 m ρ) c)).trans (G0_eq m ρ c)]
  rw [e16, e26, show E3 m ρ c main_arg6 = m ((c : Thread nD τ).loc main_arg6) from W3_arg6 m ρ c,
    show E3 m ρ c main_arg8 = m ((c : Thread nD τ).loc main_arg8) from W3_arg8 m ρ c,
    show E3 m ρ c main_v33 = _ from W3_v33 m ρ c, show E3 m ρ c main_v34 = _ from W3_v34 m ρ c,
    W2_arg7, W2_arg9, layerRows_bcast]

/-- The padded readout matrix on its first six columns, and the padded bias on its first six entries. -/
theorem lw_pad (c : Dev nD) (k : Fin 256) (j : Fin 6) :
    E3 m ρ c main_v29 (ix2 k (⟨j.val, by omega⟩ : Fin 128)) = m ((c : Thread nD τ).loc main_arg10) (ix2 k j) := by
  rw [show E3 m ρ c main_v29 = _ from W3_v29 m ρ c, W2_arg10]
  exact scatter_set_cols _ _ _ rfl k j
theorem lb_pad (c : Dev nD) (j : Fin 6) :
    E3 m ρ c main_v35 (ix2 0 (⟨j.val, by omega⟩ : Fin 128)) = m ((c : Thread nD τ).loc main_arg11) (ix1 j) := by
  rw [show E3 m ρ c main_v35 = _ from W3_v35 m ρ c, W2_arg11, pad_row]
  exact scatter_set_vec _ _ _ rfl j

/-- THE KERNEL PROGRAM'S RESULT: the readout of the second layer summed over all nodes. -/
theorem kernel_result (c : Dev nD) :
    (W5 m ρ c (Proc.devRef .tc main_v38) : S6.Idx → EReal)
      = fun j => readout (layer2 m c) (m ((c : Thread nD τ).loc main_arg10)) (m ((c : Thread nD τ).loc main_arg11)) (j 0) := by
  funext j
  obtain ⟨j0, rfl⟩ : ∃ j0 : Fin 6, j = ix1 j0 := ⟨j 0, eq_ix1 j⟩
  rw [W5_v38_apply, final1_apply]
  refine Eq.trans ?_ (readout_blocks (layer2 m c) (E3 m ρ c main_v29) (E3 m ρ c main_v35) _ _ j0 ⟨j0.val, by omega⟩
    (fun k => lw_pad m ρ c k j0) (lb_pad m ρ c j0))
  refine congrArg (0 + ·) (Finset.sum_congr rfl fun i _ => ?_)
  unfold blkSum
  rw [H1_eq]
  rfl

/-- THE RUN, READ: the result buffer ends at the reference's function of the arguments, the arguments as launched. -/
theorem kernel_run : θ_run defs (onTc (τ := τ) (main (F := Ideal))) ⟨m, fun _ => 0, ρ⟩ (fun r => ∀ c : Dev nD,
      r.2.mem ((c.tc : Thread nD τ).loc main_v38)
        = (fun j => readout (layer2 m c) (m ((c : Thread nD τ).loc main_arg10)) (m ((c : Thread nD τ).loc main_arg11)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_v38 (by decide))).trans (kernel_result m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_all m ρ)

end Cert.KernelIdeal.Hand

end
-- ==== Proof.lean ====
/-
  The five claims. Both kernel programs are the same text read at two instances: host operations, a first region that
  computes one layer of the network on blocks of 2000 node rows, host operations, a second region that computes the second
  layer block by block and accumulates the column sums of its padded readout, and two host operations that cut the first
  six sums out. Their frames are the run of that sequence (every argument buffer is written by no host operation and is
  at most an input window of a region). The reference's frame is its run. No operation was rewritten when the kernel was
  idealized. On the extended reals the accumulated block sums are the sum over all nodes regrouped, the padded readout
  agrees with the unpadded one on the first six columns, and each layer of the kernel is the reference's layer row by row;
  the two aggregations are the same host operations applied to equal arrays.
-/
import proofs.«121622_j79328045957731_1_alg».proof.Defs
import proofs.«121622_j79328045957731_1_alg».proof.Proof.Gen.Kernel
import proofs.«121622_j79328045957731_1_alg».proof.Proof.Gen.KernelIdeal
import proofs.«121622_j79328045957731_1_alg».proof.Proof.Gen.ReferenceIdeal
import proofs.«121622_j79328045957731_1_alg».proof.Proof.Gen.Pre_finite_inputs
import proofs.«121622_j79328045957731_1_alg».proof.Proof.BitsRun
import proofs.«121622_j79328045957731_1_alg».proof.Proof.Bridge
import proofs.«121622_j79328045957731_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the readout of the second layer summed over all
    nodes, as one function of the arguments. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefValue.run_spec m' ρ')
  obtain ⟨h0, h1, h2, h3, h4, h5, h6, h7, h8, h9, h10, h11⟩ := hagree c
  rw [h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
